-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x4 : Shape := ⟨3, ![8, 16384, 4]⟩
abbrev S512x4 : Shape := ⟨2, ![512, 4]⟩
abbrev S_ : Shape := ⟨0, ![]⟩

class Facts : Prop where
  bcast_S_S8x16384x4 : S_.BroadcastsInDim S8x16384x4 (![] : Fin 0 → Fin S8x16384x4.rank)
  reducesTo_S8x16384x4_S_d0_1_2 : S8x16384x4.ReducesTo [0, 1, 2] S_
  h_S_ : 0 < S_.numel
  bcast_S_S512x4 : S_.BroadcastsInDim S512x4 (![] : Fin 0 → Fin S512x4.rank)
  reducesTo_S512x4_S_d0_1 : S512x4.ReducesTo [0, 1] S_

variable [Facts]

def fn {F : FTy → Type} [FloatOps F] (main_arg0 : FVec F S8x16384x4 .f32) (main_arg1 : FVec F S8x16384x4 .f32) (main_arg2 : FVec F S512x4 .f32) : IVec S_ 1 :=
  let main_v0 : FVec F S8x16384x4 .f32 := Host.absf main_arg0
  let main_cst : FVec F S_ .f32 := constant S_ .f32 0x7F800000#32
  let main_v1 : FVec F S8x16384x4 .f32 := broadcastInDim S8x16384x4 ![] bcast_S_S8x16384x4 main_cst
  let main_v2 : IVec S8x16384x4 1 := cmpf .olt main_v0 main_v1
  let main_c : IVec S_ 1 := constantI S_ 1 1#1
  let main_v3 : IVec S_ 1 := (fun x v => Host.reduce IntOp.andi x v reducesTo_S8x16384x4_S_d0_1_2 h_S_) main_v2 main_c
  let main_v4 : FVec F S8x16384x4 .f32 := Host.absf main_arg1
  let main_cst_0 : FVec F S_ .f32 := constant S_ .f32 0x7F800000#32
  let main_v5 : FVec F S8x16384x4 .f32 := broadcastInDim S8x16384x4 ![] bcast_S_S8x16384x4 main_cst_0
  let main_v6 : IVec S8x16384x4 1 := cmpf .olt main_v4 main_v5
  let main_c_1 : IVec S_ 1 := constantI S_ 1 1#1
  let main_v7 : IVec S_ 1 := (fun x v => Host.reduce IntOp.andi x v reducesTo_S8x16384x4_S_d0_1_2 h_S_) main_v6 main_c_1
  let main_v8 : IVec S_ 1 := andi main_v3 main_v7
  let main_v9 : FVec F S512x4 .f32 := Host.absf main_arg2
  let main_cst_2 : FVec F S_ .f32 := constant S_ .f32 0x7F800000#32
  let main_v10 : FVec F S512x4 .f32 := broadcastInDim S512x4 ![] bcast_S_S512x4 main_cst_2
  let main_v11 : IVec S512x4 1 := cmpf .olt main_v9 main_v10
  let main_c_3 : IVec S_ 1 := constantI S_ 1 1#1
  let main_v12 : IVec S_ 1 := (fun x v => Host.reduce IntOp.andi x v reducesTo_S512x4_S_d0_1 h_S_) main_v11 main_c_3
  let main_v13 : IVec S_ 1 := andi main_v8 main_v12
  main_v13
-- ==== Kernel.lean ====
abbrev S8x16384x4 : Shape := ⟨3, ![8, 16384, 4]⟩
abbrev S512x4 : Shape := ⟨2, ![512, 4]⟩
abbrev S8x16384x1 : Shape := ⟨3, ![8, 16384, 1]⟩
abbrev S8x16384 : Shape := ⟨2, ![8, 16384]⟩
abbrev S_ : Shape := ⟨0, ![]⟩
abbrev S512x1 : Shape := ⟨2, ![512, 1]⟩
abbrev S512 : Shape := ⟨1, ![512]⟩
abbrev S4x512 : Shape := ⟨2, ![4, 512]⟩
abbrev S8x16384x512 : Shape := ⟨3, ![8, 16384, 512]⟩
abbrev S1x2048x4 : Shape := ⟨3, ![1, 2048, 4]⟩
abbrev S1x2048x512 : Shape := ⟨3, ![1, 2048, 512]⟩
abbrev S2048x4 : Shape := ⟨2, ![2048, 4]⟩
abbrev S2048x1 : Shape := ⟨2, ![2048, 1]⟩
abbrev S1x512 : Shape := ⟨2, ![1, 512]⟩
abbrev S2048x512 : Shape := ⟨2, ![2048, 512]⟩

abbrev nBuf : Space → Nat
  | .hbm => 75
  | .vmem => 9
  | .smem => 0
  | _ => 0

abbrev bufTy : (tb : Table) → Fin (tcTables nBuf tb) → BufTy
  | .hbm, ⟨0, _⟩ => ⟨S8x16384x4, .f32⟩
  | .hbm, ⟨1, _⟩ => ⟨S8x16384x4, .f32⟩
  | .hbm, ⟨2, _⟩ => ⟨S512x4, .f32⟩
  | .hbm, ⟨3, _⟩ => ⟨S8x16384x1, .f32⟩
  | .hbm, ⟨4, _⟩ => ⟨S8x16384, .f32⟩
  | .hbm, ⟨5, _⟩ => ⟨S8x16384x1, .f32⟩
  | .hbm, ⟨6, _⟩ => ⟨S8x16384, .f32⟩
  | .hbm, ⟨7, _⟩ => ⟨S8x16384x1, .f32⟩
  | .hbm, ⟨8, _⟩ => ⟨S8x16384, .f32⟩
  | .hbm, ⟨9, _⟩ => ⟨S8x16384x1, .f32⟩
  | .hbm, ⟨10, _⟩ => ⟨S8x16384, .f32⟩
  | .hbm, ⟨11, _⟩ => ⟨S8x16384, .f32⟩
  | .hbm, ⟨12, _⟩ => ⟨S_, .f32⟩
  | .hbm, ⟨13, _⟩ => ⟨S8x16384, .f32⟩
  | .hbm, ⟨14, _⟩ => ⟨S8x16384, .f32⟩
  | .hbm, ⟨15, _⟩ => ⟨S8x16384, .f32⟩
  | .hbm, ⟨16, _⟩ => ⟨S_, .f32⟩
  | .hbm, ⟨17, _⟩ => ⟨S8x16384, .f32⟩
  | .hbm, ⟨18, _⟩ => ⟨S8x16384, .f32⟩
  | .hbm, ⟨19, _⟩ => ⟨S8x16384, .f32⟩
  | .hbm, ⟨20, _⟩ => ⟨S8x16384, .f32⟩
  | .hbm, ⟨21, _⟩ => ⟨S8x16384x1, .f32⟩
  | .hbm, ⟨22, _⟩ => ⟨S8x16384x1, .f32⟩
  | .hbm, ⟨23, _⟩ => ⟨S8x16384x1, .f32⟩
  | .hbm, ⟨24, _⟩ => ⟨S8x16384x1, .f32⟩
  | .hbm, ⟨25, _⟩ => ⟨S8x16384x4, .f32⟩
  | .hbm, ⟨26, _⟩ => ⟨S8x16384x1, .f32⟩
  | .hbm, ⟨27, _⟩ => ⟨S8x16384, .f32⟩
  | .hbm, ⟨28, _⟩ => ⟨S8x16384x1, .f32⟩
  | .hbm, ⟨29, _⟩ => ⟨S8x16384, .f32⟩
  | .hbm, ⟨30, _⟩ => ⟨S8x16384x1, .f32⟩
  | .hbm, ⟨31, _⟩ => ⟨S8x16384, .f32⟩
  | .hbm, ⟨32, _⟩ => ⟨S8x16384x1, .f32⟩
  | .hbm, ⟨33, _⟩ => ⟨S8x16384, .f32⟩
  | .hbm, ⟨34, _⟩ => ⟨S8x16384, .f32⟩
  | .hbm, ⟨35, _⟩ => ⟨S_, .f32⟩
  | .hbm, ⟨36, _⟩ => ⟨S8x16384, .f32⟩
  | .hbm, ⟨37, _⟩ => ⟨S8x16384, .f32⟩
  | .hbm, ⟨38, _⟩ => ⟨S8x16384, .f32⟩
  | .hbm, ⟨39, _⟩ => ⟨S_, .f32⟩
  | .hbm, ⟨40, _⟩ => ⟨S8x16384, .f32⟩
  | .hbm, ⟨41, _⟩ => ⟨S8x16384, .f32⟩
  | .hbm, ⟨42, _⟩ => ⟨S8x16384, .f32⟩
  | .hbm, ⟨43, _⟩ => ⟨S8x16384, .f32⟩
  | .hbm, ⟨44, _⟩ => ⟨S8x16384x1, .f32⟩
  | .hbm, ⟨45, _⟩ => ⟨S8x16384x1, .f32⟩
  | .hbm, ⟨46, _⟩ => ⟨S8x16384x1, .f32⟩
  | .hbm, ⟨47, _⟩ => ⟨S8x16384x1, .f32⟩
  | .hbm, ⟨48, _⟩ => ⟨S8x16384x4, .f32⟩
  | .hbm, ⟨49, _⟩ => ⟨S512x1, .f32⟩
  | .hbm, ⟨50, _⟩ => ⟨S512, .f32⟩
  | .hbm, ⟨51, _⟩ => ⟨S512x1, .f32⟩
  | .hbm, ⟨52, _⟩ => ⟨S512, .f32⟩
  | .hbm, ⟨53, _⟩ => ⟨S512x1, .f32⟩
  | .hbm, ⟨54, _⟩ => ⟨S512, .f32⟩
  | .hbm, ⟨55, _⟩ => ⟨S512x1, .f32⟩
  | .hbm, ⟨56, _⟩ => ⟨S512, .f32⟩
  | .hbm, ⟨57, _⟩ => ⟨S512, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S512, .f32⟩
  | .hbm, ⟨66, _⟩ => ⟨S512, .f32⟩
  | .hbm, ⟨67, _⟩ => ⟨S512x1, .f32⟩
  | .hbm, ⟨68, _⟩ => ⟨S512x1, .f32⟩
  | .hbm, ⟨69, _⟩ => ⟨S512x1, .f32⟩
  | .hbm, ⟨70, _⟩ => ⟨S512x1, .f32⟩
  | .hbm, ⟨71, _⟩ => ⟨S512x4, .f32⟩
  | .hbm, ⟨72, _⟩ => ⟨S4x512, .f32⟩
  | .hbm, ⟨73, _⟩ => ⟨S8x16384x512, .f32⟩
  | .hbm, ⟨74, _⟩ => ⟨S8x16384x512, .f32⟩
  | .local _ .vmem, ⟨0, _⟩ => ⟨S1x2048x4, .f32⟩
  | .local _ .vmem, ⟨1, _⟩ => ⟨S1x2048x4, .f32⟩
  | .local _ .vmem, ⟨2, _⟩ => ⟨S1x2048x4, .f32⟩
  | .local _ .vmem, ⟨3, _⟩ => ⟨S1x2048x4, .f32⟩
  | .local _ .vmem, ⟨4, _⟩ => ⟨S4x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | _, _ => ⟨S8x16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64_0 : Ref sig .tc := ⟨.hbm, 73, rfl⟩
abbrev main_v64_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S8x16384x4_S8x16384x1_0_0_0 : S8x16384x4.Slices ![0, 0, 0] S8x16384x1
  shapeCasts_S8x16384x1_S8x16384 : S8x16384x1.ShapeCasts S8x16384
  slices_S8x16384x4_S8x16384x1_0_0_1 : S8x16384x4.Slices ![0, 0, 1] S8x16384x1
  slices_S8x16384x4_S8x16384x1_0_0_2 : S8x16384x4.Slices ![0, 0, 2] S8x16384x1
  slices_S8x16384x4_S8x16384x1_0_0_3 : S8x16384x4.Slices ![0, 0, 3] S8x16384x1
  bcast_S_S8x16384 : S_.BroadcastsInDim S8x16384 (![] : Fin 0 → Fin S8x16384.rank)
  bcast_S8x16384_S8x16384x1_0_1 : S8x16384.BroadcastsInDim S8x16384x1 (![0, 1] : Fin 2 → Fin S8x16384x1.rank)
  concatenates_S8x16384x1_S8x16384x1_S8x16384x1_S8x16384x1_S8x16384x4_d2 : Shape.Concatenates [S8x16384x1, S8x16384x1, S8x16384x1, S8x16384x1] S8x16384x4 2
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  bcast_S_S512 : S_.BroadcastsInDim S512 (![] : Fin 0 → Fin S512.rank)
  bcast_S512_S512x1_0 : S512.BroadcastsInDim S512x1 (![0] : Fin 1 → Fin S512x1.rank)
  concatenates_S512x1_S512x1_S512x1_S512x1_S512x4_d1 : Shape.Concatenates [S512x1, S512x1, S512x1, S512x1] S512x4 1
  transposes_S512x4_S4x512_1_0 : S512x4.Transposes [1, 0] S4x512
  inb_S1x2048x4_S1x2048x4_0_0_0 : ∀ a, (![0, 0, 0] : Fin 3 → Nat) a + S1x2048x4.size a ≤ S1x2048x4.size a
  h_S1x2048x4 : 0 < S1x2048x4.numel
  shapeCasts_S1x2048x4_S2048x4 : S1x2048x4.ShapeCasts S2048x4
  inb_S4x512_S4x512_0_0 : ∀ a, (![0, 0] : Fin 2 → Nat) a + S4x512.size a ≤ S4x512.size a
  h_S4x512 : 0 < S4x512.numel
  shapeCasts_S4x512_S4x512 : S4x512.ShapeCasts S4x512
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  slices_S4x512_o0_0_S1x512 : S4x512.Slices ![0, 0] S1x512
  slices_S4x512_o1_0_S1x512 : S4x512.Slices ![1, 0] S1x512
  slices_S4x512_o2_0_S1x512 : S4x512.Slices ![2, 0] S1x512
  slices_S4x512_o3_0_S1x512 : S4x512.Slices ![3, 0] S1x512
  broadcasts_S2048x1_S2048x512 : S2048x1.Broadcasts S2048x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x4.size a ≤ S8x16384x4.size a
  hwx0_0 : ∀ i : grid0.Coords, EltTy.bits .f32 = 32 ∨ (Rect.block (s := S8x16384x4) S1x2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x4.size a ≤ S8x16384x4.size a
  hwx0_1 : ∀ i : grid0.Coords, EltTy.bits .f32 = 32 ∨ (Rect.block (s := S8x16384x4) S1x2048x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x512.size a
  hwx0_2 : ∀ i : grid0.Coords, EltTy.bits .f32 = 32 ∨ (Rect.block (s := S4x512) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x16384x512.size a
  hwx0_3 : ∀ i : grid0.Coords, EltTy.bits .f32 = 32 ∨ (Rect.block (s := S8x16384x512) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x16384x512.size a
  hwx0_4 : ∀ i : grid0.Coords, EltTy.bits .f32 = 32 ∨ (Rect.block (s := S8x16384x512) S1x2048x512.size (cc0_transform_4 i) (hinb0_4 i)).WholeWords (EltTy.packing .f32)

variable [Facts₀]

abbrev win0_0 : Pipeline.Window sig grid0 :=
  Pipeline.Window.ofSpec (Memref.whole main_v20) S1x2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S4x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v64_0) S1x2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v64_1) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x16384x4 : Shape := ⟨3, ![8, 16384, 4]⟩
abbrev S512x4 : Shape := ⟨2, ![512, 4]⟩
abbrev S131072x4 : Shape := ⟨2, ![131072, 4]⟩
abbrev S512x1 : Shape := ⟨2, ![512, 1]⟩
abbrev S512 : Shape := ⟨1, ![512]⟩
abbrev S_ : Shape := ⟨0, ![]⟩
abbrev S131072x1 : Shape := ⟨2, ![131072, 1]⟩
abbrev S131072 : Shape := ⟨1, ![131072]⟩
abbrev S131072x1x4 : Shape := ⟨3, ![131072, 1, 4]⟩
abbrev S1x512x4 : Shape := ⟨3, ![1, 512, 4]⟩
abbrev S131072x512x4 : Shape := ⟨3, ![131072, 512, 4]⟩
abbrev S131072x512 : Shape := ⟨2, ![131072, 512]⟩
abbrev S8x16384x512 : Shape := ⟨3, ![8, 16384, 512]⟩

abbrev nBuf : Space → Nat
  | .hbm => 92
  | .vmem => 0
  | .smem => 0
  | _ => 0

abbrev bufTy : (tb : Table) → Fin (tcTables nBuf tb) → BufTy
  | .hbm, ⟨0, _⟩ => ⟨S8x16384x4, .f32⟩
  | .hbm, ⟨1, _⟩ => ⟨S8x16384x4, .f32⟩
  | .hbm, ⟨2, _⟩ => ⟨S512x4, .f32⟩
  | .hbm, ⟨3, _⟩ => ⟨S131072x4, .f32⟩
  | .hbm, ⟨4, _⟩ => ⟨S131072x4, .f32⟩
  | .hbm, ⟨5, _⟩ => ⟨S512x1, .f32⟩
  | .hbm, ⟨6, _⟩ => ⟨S512, .f32⟩
  | .hbm, ⟨7, _⟩ => ⟨S512x1, .f32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S512x1, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x4, .f32⟩
  | .hbm, ⟨28, _⟩ => ⟨S131072x1, .f32⟩
  | .hbm, ⟨29, _⟩ => ⟨S131072, .f32⟩
  | .hbm, ⟨30, _⟩ => ⟨S131072x1, .f32⟩
  | .hbm, ⟨31, _⟩ => ⟨S131072, .f32⟩
  | .hbm, ⟨32, _⟩ => ⟨S131072x1, .f32⟩
  | .hbm, ⟨33, _⟩ => ⟨S131072, .f32⟩
  | .hbm, ⟨34, _⟩ => ⟨S131072x1, .f32⟩
  | .hbm, ⟨35, _⟩ => ⟨S131072, .f32⟩
  | .hbm, ⟨36, _⟩ => ⟨S131072, .f32⟩
  | .hbm, ⟨37, _⟩ => ⟨S_, .f32⟩
  | .hbm, ⟨38, _⟩ => ⟨S131072, .f32⟩
  | .hbm, ⟨39, _⟩ => ⟨S131072, .f32⟩
  | .hbm, ⟨40, _⟩ => ⟨S131072, .f32⟩
  | .hbm, ⟨41, _⟩ => ⟨S_, .f32⟩
  | .hbm, ⟨42, _⟩ => ⟨S131072, .f32⟩
  | .hbm, ⟨43, _⟩ => ⟨S131072, .f32⟩
  | .hbm, ⟨44, _⟩ => ⟨S131072, .f32⟩
  | .hbm, ⟨45, _⟩ => ⟨S131072, .f32⟩
  | .hbm, ⟨46, _⟩ => ⟨S131072x1, .f32⟩
  | .hbm, ⟨47, _⟩ => ⟨S131072x1, .f32⟩
  | .hbm, ⟨48, _⟩ => ⟨S131072x1, .f32⟩
  | .hbm, ⟨49, _⟩ => ⟨S131072x1, .f32⟩
  | .hbm, ⟨50, _⟩ => ⟨S131072x4, .f32⟩
  | .hbm, ⟨51, _⟩ => ⟨S131072x1x4, .f32⟩
  | .hbm, ⟨52, _⟩ => ⟨S1x512x4, .f32⟩
  | .hbm, ⟨53, _⟩ => ⟨S131072x512x4, .f32⟩
  | .hbm, ⟨54, _⟩ => ⟨S131072x512x4, .f32⟩
  | .hbm, ⟨55, _⟩ => ⟨S131072x512x4, .f32⟩
  | .hbm, ⟨56, _⟩ => ⟨S131072x512x4, .f32⟩
  | .hbm, ⟨57, _⟩ => ⟨S_, .f32⟩
  | .hbm, ⟨58, _⟩ => ⟨S131072x512, .f32⟩
  | .hbm, ⟨59, _⟩ => ⟨S131072x1, .f32⟩
  | .hbm, ⟨60, _⟩ => ⟨S131072, .f32⟩
  | .hbm, ⟨61, _⟩ => ⟨S131072x1, .f32⟩
  | .hbm, ⟨62, _⟩ => ⟨S131072, .f32⟩
  | .hbm, ⟨63, _⟩ => ⟨S131072x1, .f32⟩
  | .hbm, ⟨64, _⟩ => ⟨S131072, .f32⟩
  | .hbm, ⟨65, _⟩ => ⟨S131072x1, .f32⟩
  | .hbm, ⟨66, _⟩ => ⟨S131072, .f32⟩
  | .hbm, ⟨67, _⟩ => ⟨S131072, .f32⟩
  | .hbm, ⟨68, _⟩ => ⟨S_, .f32⟩
  | .hbm, ⟨69, _⟩ => ⟨S131072, .f32⟩
  | .hbm, ⟨70, _⟩ => ⟨S131072, .f32⟩
  | .hbm, ⟨71, _⟩ => ⟨S131072, .f32⟩
  | .hbm, ⟨72, _⟩ => ⟨S_, .f32⟩
  | .hbm, ⟨73, _⟩ => ⟨S131072, .f32⟩
  | .hbm, ⟨74, _⟩ => ⟨S131072, .f32⟩
  | .hbm, ⟨75, _⟩ => ⟨S131072, .f32⟩
  | .hbm, ⟨76, _⟩ => ⟨S131072, .f32⟩
  | .hbm, ⟨77, _⟩ => ⟨S131072x1, .f32⟩
  | .hbm, ⟨78, _⟩ => ⟨S131072x1, .f32⟩
  | .hbm, ⟨79, _⟩ => ⟨S131072x1, .f32⟩
  | .hbm, ⟨80, _⟩ => ⟨S131072x1, .f32⟩
  | .hbm, ⟨81, _⟩ => ⟨S131072x4, .f32⟩
  | .hbm, ⟨82, _⟩ => ⟨S131072x1x4, .f32⟩
  | .hbm, ⟨83, _⟩ => ⟨S1x512x4, .f32⟩
  | .hbm, ⟨84, _⟩ => ⟨S131072x512x4, .f32⟩
  | .hbm, ⟨85, _⟩ => ⟨S131072x512x4, .f32⟩
  | .hbm, ⟨86, _⟩ => ⟨S131072x512x4, .f32⟩
  | .hbm, ⟨87, _⟩ => ⟨S131072x512x4, .f32⟩
  | .hbm, ⟨88, _⟩ => ⟨S_, .f32⟩
  | .hbm, ⟨89, _⟩ => ⟨S131072x512, .f32⟩
  | .hbm, ⟨90, _⟩ => ⟨S8x16384x512, .f32⟩
  | .hbm, ⟨91, _⟩ => ⟨S8x16384x512, .f32⟩
  | _, _ => ⟨S8x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩

abbrev nD : Nat := 1
abbrev τ : Topo := Topo.v7x

variable {F : FTy → Type} [FloatOps F]

class Facts₀ : Prop where
  shapeCasts_S8x16384x4_S131072x4 : S8x16384x4.ShapeCasts S131072x4
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  bcast_S_S512 : S_.BroadcastsInDim S512 (![] : Fin 0 → Fin S512.rank)
  bcast_S512_S512x1_0 : S512.BroadcastsInDim S512x1 (![0] : Fin 1 → Fin S512x1.rank)
  concatenates_S512x1_S512x1_S512x1_S512x1_S512x4_d1 : Shape.Concatenates [S512x1, S512x1, S512x1, S512x1] S512x4 1
  slices_S131072x4_S131072x1_0_0 : S131072x4.Slices ![0, 0] S131072x1
  shapeCasts_S131072x1_S131072 : S131072x1.ShapeCasts S131072
  slices_S131072x4_S131072x1_0_1 : S131072x4.Slices ![0, 1] S131072x1
  slices_S131072x4_S131072x1_0_2 : S131072x4.Slices ![0, 2] S131072x1
  slices_S131072x4_S131072x1_0_3 : S131072x4.Slices ![0, 3] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x1_S131072x4_d1 : Shape.Concatenates [S131072x1, S131072x1, S131072x1, S131072x1] S131072x4 1
  bcast_S131072x4_S131072x1x4_0_2 : S131072x4.BroadcastsInDim S131072x1x4 (![0, 2] : Fin 2 → Fin S131072x1x4.rank)
  bcast_S512x4_S1x512x4_1_2 : S512x4.BroadcastsInDim S1x512x4 (![1, 2] : Fin 2 → Fin S1x512x4.rank)
  bcast_S131072x1x4_S131072x512x4_0_1_2 : S131072x1x4.BroadcastsInDim S131072x512x4 (![0, 1, 2] : Fin 3 → Fin S131072x512x4.rank)
  bcast_S1x512x4_S131072x512x4_0_1_2 : S1x512x4.BroadcastsInDim S131072x512x4 (![0, 1, 2] : Fin 3 → Fin S131072x512x4.rank)
  reducesTo_S131072x512x4_S131072x512_d2 : S131072x512x4.ReducesTo [2] S131072x512
  h_S_ : 0 < S_.numel
  shapeCasts_S131072x512_S8x16384x512 : S131072x512.ShapeCasts S8x16384x512

variable [Facts₀]

class Facts : Prop extends Facts₀ where

variable [Facts]
-- ==== Proof.EntryK.lean ====
/-
  The program up to its one launch. Before the launch the host computes, from the three argument arrays, the arrays the
  launch stages: the query boxes and the anchor boxes in centre-size form (each by four slices, sums, differences, a product
  with one half and a join along the last axis) and the target boxes in centre-size form, transposed. `V m c b` is what
  buffer `b` of core `c` holds when the launch is entered: the launch memory `m` after those host operations, in order.
  None of them writes an argument array, so the launch finds the three arguments as launched.
-/
import proofs.«145361_j28140625723714_2_alg».proof.Proof.Gen.Kernel.Launch
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the launch is entered: the launch memory after the host operations before it. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the launch, which the launch therefore enters at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- No host operation before the launch writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- No host operation before the launch writes the third argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

end Cert.Kernel.Hand

end
-- ==== Proof.FrameK.lean ====
/-
  The launch runs to its end, faults nowhere and leaves the argument arrays as launched.

  The launch walks an 8 x 8 grid. At point (b, g) it stages rows [2048 g, 2048 g + 2048) of batch b of the two box arrays
  and the whole 4 x 512 target array, runs the body, and writes the two 2048 x 512 result blocks back to rows
  [2048 g, 2048 g + 2048) of batch b of the two cost arrays. The body loads its three input blocks whole, computes, and
  stores each result block whole; so after the body each input buffer holds its block as staged, and each result buffer
  holds one whole-block store over a pure function of the input blocks (`blockC`, `blockA`). With that as the data of the
  launch, the library's frame run gives: every staged array ends at what the write-backs make of it, and every other
  buffer -- the three arguments among them -- ends as the launch found it, which is as launched.
-/
import proofs.«145361_j28140625723714_2_alg».proof.Proof.EntryK
import proofs.«145361_j28140625723714_2_alg».proof.Proof.Gen.Kernel.Skeleton
import proofs.«145361_j28140625723714_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of the staged arrays -/

/-- The block of staged array `w` at grid point `t`, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the buffer of the query boxes holds their block, whether it was fetched there or carried over. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the anchor boxes. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the targets, whose one block is fetched once and never moves. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a frame run over any data whose arrays are the launch-entry contents: the three arguments are staged by no
    window, so they end as the launch found them, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## What the body leaves in the two result buffers -/

/-- A whole block of boxes, a whole block of targets, a whole result block. -/
abbrev rBox : Rect S1x2048x4 := Rect.unit (s := S1x2048x4) ![0, 0, 0] S1x2048x4.size inb_S1x2048x4_S1x2048x4_0_0_0
abbrev rTgt : Rect S4x512 := Rect.unit (s := S4x512) ![0, 0] S4x512.size inb_S4x512_S4x512_0_0
abbrev rOut : Rect S1x2048x512 := Rect.unit (s := S1x2048x512) ![0, 0, 0] S1x2048x512.size inb_S1x2048x512_S1x2048x512_0_0_0

/-- The first result block: one whole store of the costs of the query block against the targets. -/
def blockC (x0 : Vec F S1x2048x4 .f32) (x2 : Vec F S4x512 .f32) : Vec F S1x2048x512 .f32 :=
  View.canon [⟨rOut, k0_pay10 (View.ld x0 rBox) (View.ld x2 rTgt)⟩]

/-- The second result block: one whole store of the costs of the anchor block against the targets. -/
def blockA (x1 : Vec F S1x2048x4 .f32) (x2 : Vec F S4x512 .f32) : Vec F S1x2048x512 .f32 :=
  View.canon [⟨rOut, k0_pay1 (k0_pay4 (View.ld x1 rBox)) (k0_pay5 (View.ld x1 rBox)) (k0_pay8 (View.ld x2 rTgt)) (k0_pay9 (View.ld x2 rTgt))
    (k0_pay11 (View.ld x1 rBox) (View.ld x2 rTgt)) (k0_pay12 (View.ld x1 rBox)) (k0_pay13 (View.ld x2 rTgt))⟩]

/-- One whole store covers the buffer. -/
theorem coverOut (p0 : Vec F S1x2048x512 .f32) (y : S1x2048x512.Idx) :
    ∃ pc ∈ ([⟨rOut, p0⟩] : List (View.Piece (Elt F) S1x2048x512 .f32)), y ∈ pc.1.set :=
  View.cover_of_tiled [⟨rOut, p0⟩] S1x2048x512.size (by rfl) y

/-! ## The body -/

set_option maxHeartbeats 1000000 in
/-- The body on whole buffers, the inputs' at known contents and the results' at anything, ends with the inputs' as they were
    and the results' at `blockC` and `blockA` of the inputs'. -/
theorem sound_kernel (c : Dev nD) (E : Set ℕ) (i : grid0.Coords)
    (arg2 : Memref sig .tc .vmem S1x2048x4 .f32) (harg2 : arg2.IsWhole) (arg3 : Memref sig .tc .vmem S1x2048x4 .f32) (harg3 : arg3.IsWhole)
    (arg4 : Memref sig .tc .vmem S4x512 .f32) (harg4 : arg4.IsWhole) (arg5 : Memref sig .tc .vmem S1x2048x512 .f32) (harg5 : arg5.IsWhole)
    (arg6 : Memref sig .tc .vmem S1x2048x512 .f32) (harg6 : arg6.IsWhole)
    (x0 x1 : Vec F S1x2048x4 .f32) (x2 : Vec F S4x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (blockC x0 x2) ∗ owns (c : Thread nD τ) arg6 fullShare (blockA x1 x2)) -∗ K ⟨⟩))
      ⊢ wp frame (wpE (defs₀ (F := F)) Variants.none c none) E (cc0__uniform_matcher_kernel i arg2 harg2 arg3 harg3 arg4 harg4 arg5 harg5 arg6 harg6) K := by
  simp only [cc0__uniform_matcher_kernel_eq_skeleton]; unfold cc0__uniform_matcher_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverOut _)
  iexists _; isplitr
  swap; · iexact H4
  ipureintro
  try dsimp only
  exact View.read_writes_eq_canon _ _ _ (coverOut _)

/-! ## The data of the launch -/

/-- On core `c`: the arrays as the launch finds them; after the body at point `t` each input buffer at its block and each result
    buffer at its block function of the input blocks; nothing carried between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockC (iblk m c 0 t) (iblk m c 2 t)
    | ⟨4, _⟩ => blockA (iblk m c 1 t) (iblk m c 2 t)
  Φ _ := Pipeline.ΦA spec0 c
  q _ := fullShare
  owed _ := 0

/-- The data's arrays are the launch-entry contents (by projection: the host prefix is never opened). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = blockC (iblk m c 0 t) (iblk m c 2 t) := by dsimp only [dats]
theorem after4 (c : Dev nD) (t : Fin cfg0.N) : (dats m 0 c).after 4 t = blockA (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body at a grid point -/

/-- What the body is called with at point `t`, the five buffers one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and at its end every staged
    array holds what the library computes from the data and every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.EntryI.lean ====
/-
  The program up to its one launch. Before the launch the host computes, from the three argument arrays, the arrays the
  launch stages: the query boxes and the anchor boxes in centre-size form (each by four slices, sums, differences, a product
  with one half and a join along the last axis) and the target boxes in centre-size form, transposed. `V m c b` is what
  buffer `b` of core `c` holds when the launch is entered: the launch memory `m` after those host operations, in order.
  None of them writes an argument array, so the launch finds the three arguments as launched.
-/
import proofs.«145361_j28140625723714_2_alg».proof.Proof.Gen.KernelIdeal.Launch
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the launch is entered: the launch memory after the host operations before it. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the launch, which the launch therefore enters at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- No host operation before the launch writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- No host operation before the launch writes the third argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

end Cert.KernelIdeal.Hand

end
-- ==== Proof.FrameI.lean ====
/-
  The launch runs to its end, faults nowhere and leaves the argument arrays as launched.

  The launch walks an 8 x 8 grid. At point (b, g) it stages rows [2048 g, 2048 g + 2048) of batch b of the two box arrays
  and the whole 4 x 512 target array, runs the body, and writes the two 2048 x 512 result blocks back to rows
  [2048 g, 2048 g + 2048) of batch b of the two cost arrays. The body loads its three input blocks whole, computes, and
  stores each result block whole; so after the body each input buffer holds its block as staged, and each result buffer
  holds one whole-block store over a pure function of the input blocks (`blockC`, `blockA`). With that as the data of the
  launch, the library's frame run gives: every staged array ends at what the write-backs make of it, and every other
  buffer -- the three arguments among them -- ends as the launch found it, which is as launched.
-/
import proofs.«145361_j28140625723714_2_alg».proof.Proof.EntryI
import proofs.«145361_j28140625723714_2_alg».proof.Proof.Gen.KernelIdeal.Skeleton
import proofs.«145361_j28140625723714_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of the staged arrays -/

/-- The block of staged array `w` at grid point `t`, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the buffer of the query boxes holds their block, whether it was fetched there or carried over. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the anchor boxes. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the targets, whose one block is fetched once and never moves. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a frame run over any data whose arrays are the launch-entry contents: the three arguments are staged by no
    window, so they end as the launch found them, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## What the body leaves in the two result buffers -/

/-- A whole block of boxes, a whole block of targets, a whole result block. -/
abbrev rBox : Rect S1x2048x4 := Rect.unit (s := S1x2048x4) ![0, 0, 0] S1x2048x4.size inb_S1x2048x4_S1x2048x4_0_0_0
abbrev rTgt : Rect S4x512 := Rect.unit (s := S4x512) ![0, 0] S4x512.size inb_S4x512_S4x512_0_0
abbrev rOut : Rect S1x2048x512 := Rect.unit (s := S1x2048x512) ![0, 0, 0] S1x2048x512.size inb_S1x2048x512_S1x2048x512_0_0_0

/-- The first result block: one whole store of the costs of the query block against the targets. -/
def blockC (x0 : Vec F S1x2048x4 .f32) (x2 : Vec F S4x512 .f32) : Vec F S1x2048x512 .f32 :=
  View.canon [⟨rOut, k0_pay10 (View.ld x0 rBox) (View.ld x2 rTgt)⟩]

/-- The second result block: one whole store of the costs of the anchor block against the targets. -/
def blockA (x1 : Vec F S1x2048x4 .f32) (x2 : Vec F S4x512 .f32) : Vec F S1x2048x512 .f32 :=
  View.canon [⟨rOut, k0_pay1 (k0_pay4 (View.ld x1 rBox)) (k0_pay5 (View.ld x1 rBox)) (k0_pay8 (View.ld x2 rTgt)) (k0_pay9 (View.ld x2 rTgt))
    (k0_pay11 (View.ld x1 rBox) (View.ld x2 rTgt)) (k0_pay12 (View.ld x1 rBox)) (k0_pay13 (View.ld x2 rTgt))⟩]

/-- One whole store covers the buffer. -/
theorem coverOut (p0 : Vec F S1x2048x512 .f32) (y : S1x2048x512.Idx) :
    ∃ pc ∈ ([⟨rOut, p0⟩] : List (View.Piece (Elt F) S1x2048x512 .f32)), y ∈ pc.1.set :=
  View.cover_of_tiled [⟨rOut, p0⟩] S1x2048x512.size (by rfl) y

/-! ## The body -/

set_option maxHeartbeats 1000000 in
/-- The body on whole buffers, the inputs' at known contents and the results' at anything, ends with the inputs' as they were
    and the results' at `blockC` and `blockA` of the inputs'. -/
theorem sound_kernel (c : Dev nD) (E : Set ℕ) (i : grid0.Coords)
    (arg2 : Memref sig .tc .vmem S1x2048x4 .f32) (harg2 : arg2.IsWhole) (arg3 : Memref sig .tc .vmem S1x2048x4 .f32) (harg3 : arg3.IsWhole)
    (arg4 : Memref sig .tc .vmem S4x512 .f32) (harg4 : arg4.IsWhole) (arg5 : Memref sig .tc .vmem S1x2048x512 .f32) (harg5 : arg5.IsWhole)
    (arg6 : Memref sig .tc .vmem S1x2048x512 .f32) (harg6 : arg6.IsWhole)
    (x0 x1 : Vec F S1x2048x4 .f32) (x2 : Vec F S4x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (blockC x0 x2) ∗ owns (c : Thread nD τ) arg6 fullShare (blockA x1 x2)) -∗ K ⟨⟩))
      ⊢ wp frame (wpE (defs₀ (F := F)) Variants.none c none) E (cc0__uniform_matcher_kernel i arg2 harg2 arg3 harg3 arg4 harg4 arg5 harg5 arg6 harg6) K := by
  simp only [cc0__uniform_matcher_kernel_eq_skeleton]; unfold cc0__uniform_matcher_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverOut _)
  iexists _; isplitr
  swap; · iexact H4
  ipureintro
  try dsimp only
  exact View.read_writes_eq_canon _ _ _ (coverOut _)

/-! ## The data of the launch -/

/-- On core `c`: the arrays as the launch finds them; after the body at point `t` each input buffer at its block and each result
    buffer at its block function of the input blocks; nothing carried between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockC (iblk m c 0 t) (iblk m c 2 t)
    | ⟨4, _⟩ => blockA (iblk m c 1 t) (iblk m c 2 t)
  Φ _ := Pipeline.ΦA spec0 c
  q _ := fullShare
  owed _ := 0

/-- The data's arrays are the launch-entry contents (by projection: the host prefix is never opened). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = blockC (iblk m c 0 t) (iblk m c 2 t) := by dsimp only [dats]
theorem after4 (c : Dev nD) (t : Fin cfg0.N) : (dats m 0 c).after 4 t = blockA (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body at a grid point -/

/-- What the body is called with at point `t`, the five buffers one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and at its end every staged
    array holds what the library computes from the data and every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The specification both programs are compared with, as one function of the argument arrays, index by index, over the
  extended reals.

  A box arrives as corners (x0, y0, x1, y1) on its last axis and is re-expressed as centre and size,
  (cx, cy, w, h) = ((x0 + x1) / 2, (y0 + y1) / 2, x1 - x0, y1 - y0), the halving being the product with the exact dyadic 1/2.
  The cost of a query box against a target box is their L1 distance in that form: the sum over the four coordinates of the
  absolute differences. The sum is written in the order ((d0 + d1) + d2) + d3; a sum over the four coordinates taken from
  zero is the same number, addition of extended reals being commutative and associative (`sum_four`).
-/
import Idealize.ShloMosaic.PureOps.Ideal
import Idealize.ShloMosaic.Lib.ValueIdx

noncomputable section

open scoped BigOperators

namespace Cert.Spec

open Idealize.ShloMosaic Idealize.ShloMosaic.ValueIdx

/-- The queries' (and anchors') array: 8 batches of 16384 boxes. -/
abbrev SQ : Shape := ⟨3, ![8, 16384, 4]⟩
/-- The targets' array: 512 boxes. -/
abbrev ST : Shape := ⟨2, ![512, 4]⟩
/-- The targets in centre-size form, one row per coordinate. -/
abbrev STt : Shape := ⟨2, ![4, 512]⟩
/-- The cost array: one entry per batch, query and target. -/
abbrev SC : Shape := ⟨3, ![8, 16384, 512]⟩

/-- One half, as the float word both programs carry. -/
def half : EReal := Ideal.ofBits .f32 0x3F000000#32

/-- The absolute value of an extended real. -/
def absE (a : EReal) : EReal := max a (-a)

/-- Coordinate `k` of the centre-size form of the corner box `(a0, a1, a2, a3)`. -/
def box (a0 a1 a2 a3 : EReal) : Fin 4 → EReal
  | ⟨0, _⟩ => (a0 + a2) * half
  | ⟨1, _⟩ => (a1 + a3) * half
  | ⟨2, _⟩ => a2 - a0
  | ⟨3, _⟩ => a3 - a1

/-- Coordinate `k` of query `q` of batch `b`, in centre-size form. -/
def qbox (x : SQ.Idx → EReal) (b : Fin 8) (q : Fin 16384) (k : Fin 4) : EReal :=
  box (x (ix3 b q 0)) (x (ix3 b q 1)) (x (ix3 b q 2)) (x (ix3 b q 3)) k

/-- Coordinate `k` of target `j`, in centre-size form. -/
def tbox (t : ST.Idx → EReal) (j : Fin 512) (k : Fin 4) : EReal :=
  box (t (ix2 j 0)) (t (ix2 j 1)) (t (ix2 j 2)) (t (ix2 j 3)) k

/-- The whole array of query boxes in centre-size form. -/
def boxes (x : SQ.Idx → EReal) : SQ.Idx → EReal := fun i => qbox x (i 0) (i 1) (i 2)

/-- The targets in centre-size form, transposed: row `k` holds coordinate `k` of every target. -/
def tboxesT (t : ST.Idx → EReal) : STt.Idx → EReal := fun i => tbox t (i 1) (i 0)

/-- The L1 distance between two boxes given by their four coordinates, summed left to right. -/
def l1 (p r : Fin 4 → EReal) : EReal :=
  absE (p 0 - r 0) + absE (p 1 - r 1) + absE (p 2 - r 2) + absE (p 3 - r 3)

/-- The cost of query `q` of batch `b` against target `j`. -/
def cost (x : SQ.Idx → EReal) (t : ST.Idx → EReal) (b : Fin 8) (q : Fin 16384) (j : Fin 512) : EReal :=
  l1 (qbox x b q) (tbox t j)

/-- THE SPECIFICATION: the cost array of the boxes `x` against the targets `t`. -/
def G (x : SQ.Idx → EReal) (t : ST.Idx → EReal) : SC.Idx → EReal := fun i => cost x t (i 0) (i 1) (i 2)

theorem G_ix3 (x : SQ.Idx → EReal) (t : ST.Idx → EReal) (b : Fin 8) (q : Fin 16384) (j : Fin 512) :
    G x t (ix3 b q j) = cost x t b q j := rfl

/-- A sum over the four coordinates started from zero is the left-to-right sum. -/
theorem sum_four (f : Fin 4 → EReal) : (0 : EReal) + ∑ k : Fin 4, f k = f 0 + f 1 + f 2 + f 3 := by
  rw [zero_add, Fin.sum_univ_four]

end Cert.Spec

end
-- ==== Proof.PayloadI.lean ====
/-
  The body's arithmetic, read at one entry of a result block.

  Entry (r, s) of a result block depends on row r of the block of boxes and on column s of the 4 x 512 target array: it is
  the L1 distance between the four numbers of that row and the four numbers of that column, summed left to right. Inside the
  body the four numbers of a row come by column slices spread across the 512 targets, and the four numbers of a column by
  row slices spread down the 2048 boxes; a leading unit axis is dropped on the way in and put back on the way out.
-/
import proofs.«145361_j28140625723714_2_alg».proof.Proof.Gen.KernelIdeal.Skeleton
import proofs.«145361_j28140625723714_2_alg».proof.Proof.Spec
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- Column `k` of a 2048 x 4 block, spread across 512 columns, reads `(r, k)` at `(r, s)`. -/
theorem colSpread (x : FVec Ideal S2048x4 .f32) (o : Nat) (hs : S2048x4.Slices ![0, o] S2048x1) (hb : S2048x1.Broadcasts S2048x512)
    (r : Fin 2048) (s : Fin 512) (k : Fin 4) (hk : k.val = o) :
    broadcastTo S2048x512 (extractStridedSlice S2048x1 ![0, o] x hs) hb (ix2 r s) = x (ix2 r k) := by
  refine (broadcastTo_apply _ hb (ix2 r s) (ix2 r (0 : Fin 1)) fun ax => ?_).trans ?_
  · match ax with
    | ⟨0, _⟩ => rfl
    | ⟨1, _⟩ => rfl
  · exact slice2_axis1_apply o x hs r 0 k (by simpa using hk)

/-- Row `k` of a 4 x 512 array, spread down 2048 rows, reads `(k, s)` at `(r, s)`. -/
theorem rowSpread (y : FVec Ideal S4x512 .f32) (o : Nat) (hs : S4x512.Slices ![o, 0] S1x512) (hb : S1x512.Broadcasts S2048x512)
    (r : Fin 2048) (s : Fin 512) (k : Fin 4) (hk : k.val = o) :
    broadcastTo S2048x512 (extractStridedSlice S1x512 ![o, 0] y hs) hb (ix2 r s) = y (ix2 k s) :=
  (broadcastTo_1b_ab_apply _ hb r s).trans (slice2_axis0_apply o y hs 0 s k (by simpa using hk))

/-- Number `k` of row `r` of a block of boxes, as the body obtains it. -/
theorem boxCoord (v : Vec Ideal S1x2048x4 .f32) (o : Nat) {hs : S2048x4.Slices ![0, o] S2048x1} (r : Fin 2048) (s : Fin 512) (k : Fin 4) (hk : k.val = o) :
    broadcastTo S2048x512 (extractStridedSlice S2048x1 ![0, o] (shapeCast S2048x4 v shapeCasts_S1x2048x4_S2048x4) hs) broadcasts_S2048x1_S2048x512 (ix2 r s)
      = v (ix3 (0 : Fin 1) r k) :=
  (colSpread _ o hs _ r s k hk).trans (shapeCast_1ab_ab_apply v _ r k)

/-- Number `k` of target `s`, as the body obtains it. -/
theorem tgtCoord (v : Vec Ideal S4x512 .f32) (o : Nat) {hs : S4x512.Slices ![o, 0] S1x512} (r : Fin 2048) (s : Fin 512) (k : Fin 4) (hk : k.val = o) :
    broadcastTo S2048x512 (extractStridedSlice S1x512 ![o, 0] (shapeCast S4x512 v shapeCasts_S4x512_S4x512) hs) broadcasts_S1x512_S2048x512 (ix2 r s)
      = v (ix2 k s) :=
  (rowSpread _ o hs _ r s k hk).trans (congrFun (shapeCast_self v _) _)

/-- The first result block at `(r, s)`: the L1 distance between row `r` of the query block and column `s` of the targets. -/
theorem payC_apply (v0 : Vec Ideal S1x2048x4 .f32) (v4 : Vec Ideal S4x512 .f32) (u : Fin 1) (r : Fin 2048) (s : Fin 512) :
    k0_pay10 (F := Ideal) v0 v4 (ix3 u r s)
      = Cert.Spec.l1 (fun k => v0 (ix3 (0 : Fin 1) r k)) (fun k => v4 (ix2 k s)) := by
  unfold k0_pay10
  refine (shapeCast_ab_1ab_apply _ _ u r s).trans ?_
  unfold k0_pay6 k0_pay7 k0_pay8 k0_pay9 k0_pay3
  dsimp only
  show Cert.Spec.absE (_ - _) + Cert.Spec.absE (_ - _) + Cert.Spec.absE (_ - _) + Cert.Spec.absE (_ - _) = _
  rw [boxCoord v0 0 r s 0 rfl, boxCoord v0 1 r s 1 rfl, boxCoord v0 2 r s 2 rfl, boxCoord v0 3 r s 3 rfl,
    tgtCoord v4 0 r s 0 rfl, tgtCoord v4 1 r s 1 rfl, tgtCoord v4 2 r s 2 rfl, tgtCoord v4 3 r s 3 rfl]
  rfl

/-- The second result block at `(r, s)`: the same distance from row `r` of the anchor block. -/
theorem payA_apply (v2 : Vec Ideal S1x2048x4 .f32) (v4 : Vec Ideal S4x512 .f32) (u : Fin 1) (r : Fin 2048) (s : Fin 512) :
    k0_pay1 (F := Ideal) (k0_pay4 v2) (k0_pay5 v2) (k0_pay8 v4) (k0_pay9 v4) (k0_pay11 v2 v4) (k0_pay12 v2) (k0_pay13 v4) (ix3 u r s)
      = Cert.Spec.l1 (fun k => v2 (ix3 (0 : Fin 1) r k)) (fun k => v4 (ix2 k s)) := by
  unfold k0_pay1
  refine (shapeCast_ab_1ab_apply _ _ u r s).trans ?_
  unfold k0_pay4 k0_pay5 k0_pay8 k0_pay9 k0_pay11 k0_pay12 k0_pay13 k0_pay6 k0_pay7 k0_pay2 k0_pay3
  dsimp only
  show Cert.Spec.absE (_ - _) + Cert.Spec.absE (_ - _) + Cert.Spec.absE (_ - _) + Cert.Spec.absE (_ - _) = _
  rw [boxCoord v2 0 r s 0 rfl, boxCoord v2 1 r s 1 rfl, boxCoord v2 2 r s 2 rfl, boxCoord v2 3 r s 3 rfl,
    tgtCoord v4 0 r s 0 rfl, tgtCoord v4 1 r s 1 rfl, tgtCoord v4 2 r s 2 rfl, tgtCoord v4 3 r s 3 rfl]
  rfl

/-- The first result block at any entry `j`, by its coordinates. -/
theorem payC_at (v0 : Vec Ideal S1x2048x4 .f32) (v4 : Vec Ideal S4x512 .f32) (j : S1x2048x512.Idx) :
    k0_pay10 (F := Ideal) v0 v4 j
      = Cert.Spec.l1 (fun k => v0 (ix3 (0 : Fin 1) (j 1) k)) (fun k => v4 (ix2 k (j 2))) := by
  obtain ⟨u, r, s, rfl⟩ : ∃ (u : Fin 1) (r : Fin 2048) (s : Fin 512), j = ix3 u r s := ⟨j 0, j 1, j 2, eq_ix3 j⟩
  exact payC_apply v0 v4 u r s

/-- The second result block at any entry `j`, by its coordinates. -/
theorem payA_at (v2 : Vec Ideal S1x2048x4 .f32) (v4 : Vec Ideal S4x512 .f32) (j : S1x2048x512.Idx) :
    k0_pay1 (F := Ideal) (k0_pay4 v2) (k0_pay5 v2) (k0_pay8 v4) (k0_pay9 v4) (k0_pay11 v2 v4) (k0_pay12 v2) (k0_pay13 v4) j
      = Cert.Spec.l1 (fun k => v2 (ix3 (0 : Fin 1) (j 1) k)) (fun k => v4 (ix2 k (j 2))) := by
  obtain ⟨u, r, s, rfl⟩ : ∃ (u : Fin 1) (r : Fin 2048) (s : Fin 512), j = ix3 u r s := ⟨j 0, j 1, j 2, eq_ix3 j⟩
  exact payA_apply v2 v4 u r s

end Cert.KernelIdeal.Hand

end
-- ==== Proof.BlocksI.lean ====
/-
  From blocks to arrays, at the exact reals.

  Grid point (b, g) writes back the 2048 x 512 block of costs of rows [2048 g, 2048 g + 2048) of batch b. Entry (r, s) of that
  block is the L1 distance between row r of the staged block of boxes and column s of the staged targets; row r of the block
  is row 2048 g + r of batch b of the staged array, which is where entry (r, s) of the block lands in the cost array. So every
  point writes block t of ONE array, `costOf P T`: entry (b, q, j) is the L1 distance between box (b, q) of `P` and column j
  of `T`. The 64 blocks tile the cost array (entry (b, q, j) lies in the block of point (b, q / 2048)), so after the run the
  array is `costOf P T` everywhere. The same holds for the anchors' cost array.
-/
import proofs.«145361_j28140625723714_2_alg».proof.Proof.FrameI
import proofs.«145361_j28140625723714_2_alg».proof.Proof.PayloadI
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The cost array of an array of boxes `P` against targets given coordinate by coordinate in the rows of `T`. -/
def costOf (P : S8x16384x4.Idx → EReal) (T : S4x512.Idx → EReal) : S8x16384x512.Idx → EReal :=
  fun i => Cert.Spec.l1 (fun k => P (ix3 (i 0) (i 1) k)) (fun k => T (ix2 k (i 2)))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The queries' cost array -/

/-- Over the grid: the block of boxes moves with the result block on the batch and row axes, both sit at column block 0,
    and the targets' one block never moves. -/
theorem idx_factsC : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_2.index t (0 : Fin 2) = 0 ∧ win0_2.index t (1 : Fin 2) = 0 :=
  (by decide +kernel : ∀ t : Fin grid0.N, _)

/-- Every (batch, row block) pair is some grid point's. -/
theorem idx_ontoC : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- For ANY array of boxes `P` and targets `T`: the body's result on block `t` of `P` and the one block of `T` is block `t` of
    the cost array of `P` against `T`. -/
theorem blockC_read (P : S8x16384x4.Idx → EReal) (T : S4x512.Idx → EReal) (t : Fin cfg0.N) :
    (cfg0.win 3).cut (grid0.coords t)
        (blockC (((cfg0.win 0).blk t).view.read (Elt Ideal) P) (((cfg0.win 2).blk t).view.read (Elt Ideal) T))
      = ((cfg0.win 3).blk t).view.read (Elt Ideal) (costOf P T) := by
  unfold blockC
  rw [View.canon_unit_zero hz3]
  simp only [View.ld_unit_zero (S := S1x2048x4) hz3, View.ld_unit_zero (S := S4x512) hz2]
  obtain ⟨e0, e1, e2, e3, e4, e5⟩ := idx_factsC t
  funext j
  have hj0 : (j 0).val < 1 := (j 0).isLt
  refine (payC_at (((cfg0.win 0).blk t).view.read (Elt Ideal) P) (((cfg0.win 2).blk t).view.read (Elt Ideal) T)
    ((cfg0.win 3).xinj (grid0.coords t) j)).trans ?_
  have hP : ∀ k : Fin 4, ((cfg0.win 0).blk t).view.read (Elt Ideal) P (ix3 (0 : Fin 1) ((cfg0.win 3).xinj (grid0.coords t) j 1) k)
      = P (ix3 ((((cfg0.win 3).blk t).view.emb j) 0) ((((cfg0.win 3).blk t).view.emb j) 1) k) := fun k => by
    show P (((cfg0.win 0).blk t).view.emb (ix3 (0 : Fin 1) ((cfg0.win 3).xinj (grid0.coords t) j 1) k)) = _
    refine congrArg P (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 2048 + 1 * (j 1).val = win0_3.index t (1 : Fin 3) * 2048 + 1 * (j 1).val; omega
    | ⟨2, _⟩ => show win0_0.index t (2 : Fin 3) * 4 + 1 * k.val = k.val; omega
  have hT : ∀ k : Fin 4, ((cfg0.win 2).blk t).view.read (Elt Ideal) T (ix2 k ((cfg0.win 3).xinj (grid0.coords t) j 2))
      = T (ix2 k ((((cfg0.win 3).blk t).view.emb j) 2)) := fun k => by
    show T (((cfg0.win 2).blk t).view.emb (ix2 k ((cfg0.win 3).xinj (grid0.coords t) j 2))) = _
    refine congrArg T (funext fun a => Fin.ext ?_)
    match a with
    | ⟨0, _⟩ => show win0_2.index t (0 : Fin 2) * 4 + 1 * k.val = k.val; omega
    | ⟨1, _⟩ => show win0_2.index t (1 : Fin 2) * 512 + 1 * (j 2).val = win0_3.index t (2 : Fin 3) * 512 + 1 * (j 2).val; omega
  rw [funext hP, funext hT]
  rfl

/-- What grid point `t` writes back is block `t` of the cost array of the staged boxes against the staged targets. -/
theorem flushedC_eq (c : Dev nD) (t : Fin cfg0.N) :
    (dats m 0 c).flushed 3 t = ((cfg0.win 3).blk t).view.read (Elt Ideal) (costOf (V m c main_v20) (V m c main_v63)) := by
  show (cfg0.win 3).cut (grid0.coords t) ((dats m 0 c).after 3 t) = _
  rw [after3]
  have h0 : iblk m c 0 t = ((cfg0.win 0).blk t).view.read (Elt Ideal) (V m c main_v20) := rfl
  have h2 : iblk m c 2 t = ((cfg0.win 2).blk t).view.read (Elt Ideal) (V m c main_v63) := rfl
  rw [h0, h2]
  generalize V m c main_v20 = P
  generalize V m c main_v63 = T
  exact blockC_read P T t

/-- An index of the cost array is in point `t`'s block iff each coordinate is in the block's range on its axis. -/
theorem mem_blkC (t : Fin cfg0.N) (i : S8x16384x512.Idx) :
    i ∈ ((cfg0.win 3).blk t).view.set ↔ ∀ a : Fin 3, win0_3.index t a * S1x2048x512.size a ≤ (i a).val ∧ (i a).val < win0_3.index t a * S1x2048x512.size a + S1x2048x512.size a := by
  show i ∈ ((View.whole main_v64_0).slice (win0_3.rect t)).set ↔ _
  rw [View.set_slice_whole, Rect.mem_set_unit]
  exact Iff.rfl

/-- Every entry (b, q, j) of the cost array lies in the block of the point (b, q / 2048). -/
theorem coverC (i : S8x16384x512.Idx) : ∃ t : Fin cfg0.N, (cfg0.win 3).flush t = true ∧ i ∈ ((cfg0.win 3).blk t).view.set := by
  have hi0 : (i 0).val < 8 := (i 0).isLt
  have hi1 : (i 1).val < 16384 := (i 1).isLt
  have hi2 : (i 2).val < 512 := (i 2).isLt
  obtain ⟨t, ht⟩ := idx_ontoC ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blkC]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- After the run the array is the cost array of the staged boxes against the staged targets, everywhere. -/
theorem finalC (c : Dev nD) : (dats m 0 c).arrAt 3 cfg0.N = costOf (V m c main_v20) (V m c main_v63) :=
  (dats m 0 c).arrAt_eq_of_cover 3 (costOf (V m c main_v20) (V m c main_v63)) (fun t _ => flushedC_eq m c t) coverC

/-! ## The anchors' cost array -/

/-- Over the grid: the block of boxes moves with the result block on the batch and row axes, both sit at column block 0,
    and the targets' one block never moves. -/
theorem idx_factsA : ∀ t : Fin cfg0.N,
    win0_1.index t (0 : Fin 3) = win0_4.index t (0 : Fin 3) ∧ win0_1.index t (1 : Fin 3) = win0_4.index t (1 : Fin 3)
    ∧ win0_1.index t (2 : Fin 3) = 0 ∧ win0_4.index t (2 : Fin 3) = 0
    ∧ win0_2.index t (0 : Fin 2) = 0 ∧ win0_2.index t (1 : Fin 2) = 0 :=
  (by decide +kernel : ∀ t : Fin grid0.N, _)

/-- Every (batch, row block) pair is some grid point's. -/
theorem idx_ontoA : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- For ANY array of boxes `P` and targets `T`: the body's result on block `t` of `P` and the one block of `T` is block `t` of
    the cost array of `P` against `T`. -/
theorem blockA_read (P : S8x16384x4.Idx → EReal) (T : S4x512.Idx → EReal) (t : Fin cfg0.N) :
    (cfg0.win 4).cut (grid0.coords t)
        (blockA (((cfg0.win 1).blk t).view.read (Elt Ideal) P) (((cfg0.win 2).blk t).view.read (Elt Ideal) T))
      = ((cfg0.win 4).blk t).view.read (Elt Ideal) (costOf P T) := by
  unfold blockA
  rw [View.canon_unit_zero hz3]
  simp only [View.ld_unit_zero (S := S1x2048x4) hz3, View.ld_unit_zero (S := S4x512) hz2]
  obtain ⟨e0, e1, e2, e3, e4, e5⟩ := idx_factsA t
  funext j
  have hj0 : (j 0).val < 1 := (j 0).isLt
  refine (payA_at (((cfg0.win 1).blk t).view.read (Elt Ideal) P) (((cfg0.win 2).blk t).view.read (Elt Ideal) T)
    ((cfg0.win 4).xinj (grid0.coords t) j)).trans ?_
  have hP : ∀ k : Fin 4, ((cfg0.win 1).blk t).view.read (Elt Ideal) P (ix3 (0 : Fin 1) ((cfg0.win 4).xinj (grid0.coords t) j 1) k)
      = P (ix3 ((((cfg0.win 4).blk t).view.emb j) 0) ((((cfg0.win 4).blk t).view.emb j) 1) k) := fun k => by
    show P (((cfg0.win 1).blk t).view.emb (ix3 (0 : Fin 1) ((cfg0.win 4).xinj (grid0.coords t) j 1) k)) = _
    refine congrArg P (funext fun a => Fin.ext ?_)
    match a with
    | ⟨0, _⟩ => show win0_1.index t (0 : Fin 3) * 1 + 1 * 0 = win0_4.index t (0 : Fin 3) * 1 + 1 * (j 0).val; omega
    | ⟨1, _⟩ => show win0_1.index t (1 : Fin 3) * 2048 + 1 * (j 1).val = win0_4.index t (1 : Fin 3) * 2048 + 1 * (j 1).val; omega
    | ⟨2, _⟩ => show win0_1.index t (2 : Fin 3) * 4 + 1 * k.val = k.val; omega
  have hT : ∀ k : Fin 4, ((cfg0.win 2).blk t).view.read (Elt Ideal) T (ix2 k ((cfg0.win 4).xinj (grid0.coords t) j 2))
      = T (ix2 k ((((cfg0.win 4).blk t).view.emb j) 2)) := fun k => by
    show T (((cfg0.win 2).blk t).view.emb (ix2 k ((cfg0.win 4).xinj (grid0.coords t) j 2))) = _
    refine congrArg T (funext fun a => Fin.ext ?_)
    match a with
    | ⟨0, _⟩ => show win0_2.index t (0 : Fin 2) * 4 + 1 * k.val = k.val; omega
    | ⟨1, _⟩ => show win0_2.index t (1 : Fin 2) * 512 + 1 * (j 2).val = win0_4.index t (2 : Fin 3) * 512 + 1 * (j 2).val; omega
  rw [funext hP, funext hT]
  rfl

/-- What grid point `t` writes back is block `t` of the cost array of the staged boxes against the staged targets. -/
theorem flushedA_eq (c : Dev nD) (t : Fin cfg0.N) :
    (dats m 0 c).flushed 4 t = ((cfg0.win 4).blk t).view.read (Elt Ideal) (costOf (V m c main_v41) (V m c main_v63)) := by
  show (cfg0.win 4).cut (grid0.coords t) ((dats m 0 c).after 4 t) = _
  rw [after4]
  have h0 : iblk m c 1 t = ((cfg0.win 1).blk t).view.read (Elt Ideal) (V m c main_v41) := rfl
  have h2 : iblk m c 2 t = ((cfg0.win 2).blk t).view.read (Elt Ideal) (V m c main_v63) := rfl
  rw [h0, h2]
  generalize V m c main_v41 = P
  generalize V m c main_v63 = T
  exact blockA_read P T t

/-- An index of the cost array is in point `t`'s block iff each coordinate is in the block's range on its axis. -/
theorem mem_blkA (t : Fin cfg0.N) (i : S8x16384x512.Idx) :
    i ∈ ((cfg0.win 4).blk t).view.set ↔ ∀ a : Fin 3, win0_4.index t a * S1x2048x512.size a ≤ (i a).val ∧ (i a).val < win0_4.index t a * S1x2048x512.size a + S1x2048x512.size a := by
  show i ∈ ((View.whole main_v64_1).slice (win0_4.rect t)).set ↔ _
  rw [View.set_slice_whole, Rect.mem_set_unit]
  exact Iff.rfl

/-- Every entry (b, q, j) of the cost array lies in the block of the point (b, q / 2048). -/
theorem coverA (i : S8x16384x512.Idx) : ∃ t : Fin cfg0.N, (cfg0.win 4).flush t = true ∧ i ∈ ((cfg0.win 4).blk t).view.set := by
  have hi0 : (i 0).val < 8 := (i 0).isLt
  have hi1 : (i 1).val < 16384 := (i 1).isLt
  have hi2 : (i 2).val < 512 := (i 2).isLt
  obtain ⟨t, ht⟩ := idx_ontoA ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_blkA]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 512 ≤ (i 2).val ∧ (i 2).val < win0_4.index t (2 : Fin 3) * 512 + 512; omega

/-- After the run the array is the cost array of the staged boxes against the staged targets, everywhere. -/
theorem finalA (c : Dev nD) : (dats m 0 c).arrAt 4 cfg0.N = costOf (V m c main_v41) (V m c main_v63) :=
  (dats m 0 c).arrAt_eq_of_cover 4 (costOf (V m c main_v41) (V m c main_v63)) (fun t _ => flushedA_eq m c t) coverA

/-! ## The run, with both cost arrays named -/

/-- The program's run: each cost array ends as the cost array of its staged boxes against the staged targets, and the three
    arguments end as launched. -/
theorem run_cost : θ_run defs (onTc (τ := τ) (main (F := Ideal))) ⟨m, fun _ => 0, ρ⟩ fun r => ∀ c : Dev nD,
      r.2.mem ((c.tc : Thread nD τ).loc main_v64_0) = costOf (V m c main_v20) (V m c main_v63)
      ∧ r.2.mem ((c.tc : Thread nD τ).loc main_v64_1) = costOf (V m c main_v41) (V m c main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (finalC m c), ((h c).1 4).trans (finalA m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.HostDefs.lean ====
/-
  What the host computes before the launch, as functions of one argument array. A box arrives as corners
  (x0, y0, x1, y1) on its last axis; the host cuts the four coordinates out as arrays of their own (a slice of unit extent
  along the last axis, that axis dropped), forms (x0 + x1) * 1/2, (y0 + y1) * 1/2, x1 - x0 and y1 - y0 elementwise, gives
  each a unit last axis back and joins the four along it. The targets' array gets the same treatment one rank lower and is
  then transposed.
-/
import proofs.«145361_j28140625723714_2_alg».proof.Proof.Gen.KernelIdeal

noncomputable section

namespace Cert.KernelIdeal.Hand

open Cert.KernelIdeal Cert.KernelIdeal.Gen
open Idealize.ShloMosaic

variable {F : FTy → Type} [FloatOps F]

/-! ## Queries and anchors: rank three -/

/-- Four arrays of unit extent along the last axis, joined along it. -/
def join3 (p0 p1 p2 p3 : Vec F S8x16384x1 .f32) : Vec F S8x16384x4 .f32 :=
  concatenate S8x16384x4 2 [⟨S8x16384x1, p0⟩, ⟨S8x16384x1, p1⟩, ⟨S8x16384x1, p2⟩, ⟨S8x16384x1, p3⟩]
    concatenates_S8x16384x1_S8x16384x1_S8x16384x1_S8x16384x1_S8x16384x4_d2

/-- Coordinate `o` of every box: the slice of unit extent at offset `o` of the last axis, that axis dropped. -/
def col3 (x : Vec F S8x16384x4 .f32) (o : Nat) (h : S8x16384x4.Slices ![0, 0, o] S8x16384x1) : Vec F S8x16384 .f32 :=
  shapeCast S8x16384 (extractStridedSlice S8x16384x1 ![0, 0, o] x h) shapeCasts_S8x16384x1_S8x16384

/-- The constant one half at every box. -/
def half3 : Vec F S8x16384 .f32 := broadcastInDim S8x16384 ![] bcast_S_S8x16384 (constant S_ .f32 0x3F000000#32)

/-- A unit last axis added. -/
def lift3 (v : Vec F S8x16384 .f32) : Vec F S8x16384x1 .f32 :=
  broadcastInDim S8x16384x1 ![0, 1] bcast_S8x16384_S8x16384x1_0_1 v

/-- The corner boxes `x` in centre-size form, as the host computes it. -/
def hostBoxes (x : Vec F S8x16384x4 .f32) : Vec F S8x16384x4 .f32 :=
  join3
    (lift3 (mulf (addf (col3 x 0 slices_S8x16384x4_S8x16384x1_0_0_0) (col3 x 2 slices_S8x16384x4_S8x16384x1_0_0_2)) half3))
    (lift3 (mulf (addf (col3 x 1 slices_S8x16384x4_S8x16384x1_0_0_1) (col3 x 3 slices_S8x16384x4_S8x16384x1_0_0_3)) half3))
    (lift3 (subf (col3 x 2 slices_S8x16384x4_S8x16384x1_0_0_2) (col3 x 0 slices_S8x16384x4_S8x16384x1_0_0_0)))
    (lift3 (subf (col3 x 3 slices_S8x16384x4_S8x16384x1_0_0_3) (col3 x 1 slices_S8x16384x4_S8x16384x1_0_0_1)))

/-! ## Targets: rank two, then the transpose -/

/-- Four arrays of unit extent along the last axis, joined along it. -/
def join2 (p0 p1 p2 p3 : Vec F S512x1 .f32) : Vec F S512x4 .f32 :=
  concatenate S512x4 1 [⟨S512x1, p0⟩, ⟨S512x1, p1⟩, ⟨S512x1, p2⟩, ⟨S512x1, p3⟩]
    concatenates_S512x1_S512x1_S512x1_S512x1_S512x4_d1

/-- Coordinate `o` of every target box. -/
def col2 (t : Vec F S512x4 .f32) (o : Nat) (h : S512x4.Slices ![0, o] S512x1) : Vec F S512 .f32 :=
  shapeCast S512 (extractStridedSlice S512x1 ![0, o] t h) shapeCasts_S512x1_S512

/-- The constant one half at every target. -/
def half2 : Vec F S512 .f32 := broadcastInDim S512 ![] bcast_S_S512 (constant S_ .f32 0x3F000000#32)

/-- A unit last axis added. -/
def lift2 (v : Vec F S512 .f32) : Vec F S512x1 .f32 := broadcastInDim S512x1 ![0] bcast_S512_S512x1_0 v

/-- The corner boxes `t` of the targets in centre-size form, as the host computes it. -/
def hostTargets (t : Vec F S512x4 .f32) : Vec F S512x4 .f32 :=
  join2
    (lift2 (mulf (addf (col2 t 0 slices_S512x4_S512x1_0_0) (col2 t 2 slices_S512x4_S512x1_0_2)) half2))
    (lift2 (mulf (addf (col2 t 1 slices_S512x4_S512x1_0_1) (col2 t 3 slices_S512x4_S512x1_0_3)) half2))
    (lift2 (subf (col2 t 2 slices_S512x4_S512x1_0_2) (col2 t 0 slices_S512x4_S512x1_0_0)))
    (lift2 (subf (col2 t 3 slices_S512x4_S512x1_0_3) (col2 t 1 slices_S512x4_S512x1_0_1)))

/-- The same, one row per coordinate. -/
def hostTargetsT (t : Vec F S512x4 .f32) : Vec F S4x512 .f32 :=
  transpose S4x512 [1, 0] (hostTargets t) transposes_S512x4_S4x512_1_0

end Cert.KernelIdeal.Hand

end
-- ==== Proof.HostRun.lean ====
/-
  The host operations before the launch, run. They fall into three stretches that do not touch one another's buffers: the
  first 23 read only the first argument and end with the join that writes the query boxes; the next 23 do the same with the
  second argument for the anchor boxes; the last 24 read only the third argument, join, and transpose. Each stretch is read
  over arbitrary contents, and a buffer a stretch does not write keeps its contents; the three results at the launch follow
  by running the stretches in order.
-/
import proofs.«145361_j28140625723714_2_alg».proof.Proof.EntryI
import proofs.«145361_j28140625723714_2_alg».proof.Proof.HostDefs

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The three stretches -/

/-- The operations that compute the query boxes. -/
abbrev opsQ : List (HloOp τ sig (Elt F)) := (hostOps0 (F := F)).take 23
/-- The operations that compute the anchor boxes. -/
abbrev opsA : List (HloOp τ sig (Elt F)) := ((hostOps0 (F := F)).drop 23).take 23
/-- The operations that compute the target boxes. -/
abbrev opsT : List (HloOp τ sig (Elt F)) := ((hostOps0 (F := F)).drop 23).drop 23

/-- The host operations are the three stretches in order. -/
theorem hostOps0_split : (hostOps0 (F := F)) = opsQ ++ (opsA ++ opsT) := by
  rw [List.take_append_drop, List.take_append_drop]

/-! ## The joins' results -/

/-- After the join that writes the query boxes, their buffer holds the join of its four operands' contents. -/
theorem join_result_v20 (hxs hy) (G : Valuation τ sig (Elt F)) :
    (StableHlo.nary ![main_v16, main_v17, main_v18, main_v19] main_v20
        (fun u => concatenate S8x16384x4 2 [⟨S8x16384x1, u 0⟩, ⟨S8x16384x1, u 1⟩, ⟨S8x16384x1, u 2⟩, ⟨S8x16384x1, u 3⟩]
          concatenates_S8x16384x1_S8x16384x1_S8x16384x1_S8x16384x1_S8x16384x4_d2) hxs hy).result G (Proc.devRef .tc main_v20)
      = join3 (G (Proc.devRef .tc main_v16)) (G (Proc.devRef .tc main_v17)) (G (Proc.devRef .tc main_v18))
          (G (Proc.devRef .tc main_v19)) := by
  rw [StableHlo.nary_result]; rfl

/-- The same for the anchor boxes. -/
theorem join_result_v41 (hxs hy) (G : Valuation τ sig (Elt F)) :
    (StableHlo.nary ![main_v37, main_v38, main_v39, main_v40] main_v41
        (fun u => concatenate S8x16384x4 2 [⟨S8x16384x1, u 0⟩, ⟨S8x16384x1, u 1⟩, ⟨S8x16384x1, u 2⟩, ⟨S8x16384x1, u 3⟩]
          concatenates_S8x16384x1_S8x16384x1_S8x16384x1_S8x16384x1_S8x16384x4_d2) hxs hy).result G (Proc.devRef .tc main_v41)
      = join3 (G (Proc.devRef .tc main_v37)) (G (Proc.devRef .tc main_v38)) (G (Proc.devRef .tc main_v39))
          (G (Proc.devRef .tc main_v40)) := by
  rw [StableHlo.nary_result]; rfl

/-- The same for the target boxes, before the transpose. -/
theorem join_result_v62 (hxs hy) (G : Valuation τ sig (Elt F)) :
    (StableHlo.nary ![main_v58, main_v59, main_v60, main_v61] main_v62
        (fun u => concatenate S512x4 1 [⟨S512x1, u 0⟩, ⟨S512x1, u 1⟩, ⟨S512x1, u 2⟩, ⟨S512x1, u 3⟩]
          concatenates_S512x1_S512x1_S512x1_S512x1_S512x4_d1) hxs hy).result G (Proc.devRef .tc main_v62)
      = join2 (G (Proc.devRef .tc main_v58)) (G (Proc.devRef .tc main_v59)) (G (Proc.devRef .tc main_v60))
          (G (Proc.devRef .tc main_v61)) := by
  rw [StableHlo.nary_result]; rfl

/-! ## Each stretch, over any contents -/

/-- The first stretch leaves the query boxes' buffer at the centre-size form of the first argument. -/
theorem stretch_v20 (W : Valuation τ sig (Elt F)) :
    StableHlo.after opsQ W (Proc.devRef .tc main_v20) = hostBoxes (W (Proc.devRef .tc main_arg0)) := by
  simp only [opsQ, hostOps0, List.take_succ_cons, List.take_zero]
  simp only [StableHlo.after_cons, StableHlo.after_nil]
  rw [join_result_v20]
  after_results_simp
  rfl

/-- The second stretch leaves the anchor boxes' buffer at the centre-size form of the second argument. -/
theorem stretch_v41 (W : Valuation τ sig (Elt F)) :
    StableHlo.after opsA W (Proc.devRef .tc main_v41) = hostBoxes (W (Proc.devRef .tc main_arg1)) := by
  simp only [opsA, hostOps0, List.drop_succ_cons, List.drop_zero, List.take_succ_cons, List.take_zero]
  simp only [StableHlo.after_cons, StableHlo.after_nil]
  rw [join_result_v41]
  after_results_simp
  rfl

/-- The third stretch leaves the transposed target boxes' buffer at the transposed centre-size form of the third
    argument. -/
theorem stretch_v63 (W : Valuation τ sig (Elt F)) :
    StableHlo.after opsT W (Proc.devRef .tc main_v63) = hostTargetsT (W (Proc.devRef .tc main_arg2)) := by
  simp only [opsT, hostOps0, List.drop_succ_cons, List.drop_zero]
  simp only [StableHlo.after_cons, StableHlo.after_nil]
  rw [StableHlo.unary_result, join_result_v62]
  after_results_simp
  rfl

/-! ## What a stretch does not write, it keeps -/

/-- Decides, operation by operation, that a literal stretch does not write a given buffer. -/
local macro "not_written" : tactic => `(tactic| (
  simp only [opsQ, opsA, opsT, hostOps0, List.drop_succ_cons, List.drop_zero, List.take_succ_cons, List.take_zero, List.Forall,
    StableHlo.nullary_writes, StableHlo.unary_writes, StableHlo.binary_writes, StableHlo.reshape_writes, StableHlo.nary_writes,
    Finset.mem_singleton]
  repeat' apply And.intro
  all_goals exact StableHlo.devRef_ne_of_ne (by decide)))

theorem keepQ_arg1 (W : Valuation τ sig (Elt F)) :
    StableHlo.after opsQ W (Proc.devRef .tc main_arg1) = W (Proc.devRef .tc main_arg1) :=
  StableHlo.after_of_forall_not_mem (b := Proc.devRef .tc main_arg1) _ _ (List.forall_iff_forall_mem.mp (by not_written))

theorem keepQ_arg2 (W : Valuation τ sig (Elt F)) :
    StableHlo.after opsQ W (Proc.devRef .tc main_arg2) = W (Proc.devRef .tc main_arg2) :=
  StableHlo.after_of_forall_not_mem (b := Proc.devRef .tc main_arg2) _ _ (List.forall_iff_forall_mem.mp (by not_written))

theorem keepA_arg2 (W : Valuation τ sig (Elt F)) :
    StableHlo.after opsA W (Proc.devRef .tc main_arg2) = W (Proc.devRef .tc main_arg2) :=
  StableHlo.after_of_forall_not_mem (b := Proc.devRef .tc main_arg2) _ _ (List.forall_iff_forall_mem.mp (by not_written))

theorem keepA_v20 (W : Valuation τ sig (Elt F)) :
    StableHlo.after opsA W (Proc.devRef .tc main_v20) = W (Proc.devRef .tc main_v20) :=
  StableHlo.after_of_forall_not_mem (b := Proc.devRef .tc main_v20) _ _ (List.forall_iff_forall_mem.mp (by not_written))

theorem keepT_v20 (W : Valuation τ sig (Elt F)) :
    StableHlo.after opsT W (Proc.devRef .tc main_v20) = W (Proc.devRef .tc main_v20) :=
  StableHlo.after_of_forall_not_mem (b := Proc.devRef .tc main_v20) _ _ (List.forall_iff_forall_mem.mp (by not_written))

theorem keepT_v41 (W : Valuation τ sig (Elt F)) :
    StableHlo.after opsT W (Proc.devRef .tc main_v41) = W (Proc.devRef .tc main_v41) :=
  StableHlo.after_of_forall_not_mem (b := Proc.devRef .tc main_v41) _ _ (List.forall_iff_forall_mem.mp (by not_written))

/-! ## The three arrays the launch stages, when it is entered -/

variable (m : (ℓ : Loc nD τ sig) → Buf (Elt F) ℓ)

/-- The query boxes' buffer holds the host's centre-size form of the first argument. -/
theorem V_v20_host (c : Dev nD) : V m c main_v20 = hostBoxes (m ((c : Thread nD τ).loc main_arg0)) := by
  show StableHlo.after hostOps0 (fun b => m (c, b)) (Proc.devRef .tc main_v20) = _
  rw [hostOps0_split, StableHlo.after_append, StableHlo.after_append, keepT_v20, keepA_v20, stretch_v20]

/-- The anchor boxes' buffer holds the host's centre-size form of the second argument. -/
theorem V_v41_host (c : Dev nD) : V m c main_v41 = hostBoxes (m ((c : Thread nD τ).loc main_arg1)) := by
  show StableHlo.after hostOps0 (fun b => m (c, b)) (Proc.devRef .tc main_v41) = _
  rw [hostOps0_split, StableHlo.after_append, StableHlo.after_append, keepT_v41, stretch_v41, keepQ_arg1]

/-- The transposed target boxes' buffer holds the host's transposed centre-size form of the third argument. -/
theorem V_v63_host (c : Dev nD) : V m c main_v63 = hostTargetsT (m ((c : Thread nD τ).loc main_arg2)) := by
  show StableHlo.after hostOps0 (fun b => m (c, b)) (Proc.devRef .tc main_v63) = _
  rw [hostOps0_split, StableHlo.after_append, StableHlo.after_append, stretch_v63, keepA_arg2, keepQ_arg2]

end Cert.KernelIdeal.Hand

end
-- ==== Proof.HostLayout.lean ====
/-
  Layout operations of the host, read at an index given by its coordinates: a join of four pieces of unit extent along
  the last axis, a slice of unit extent along the last axis, the cast that drops a trailing unit axis and the broadcast that
  adds one. Each is stated over variables of literal vector and index types.
-/
import Idealize.ShloMosaic.Lib.ValueLayout
import Idealize.ShloMosaic.Lib.IdealHost

namespace Cert.Layout

open Idealize.ShloMosaic Idealize.ShloMosaic.ValueIdx

variable {α : Type}

/-- Four pieces of unit extent joined along the last axis of a rank-two array: entry `(j, k)` is piece `k` at `(j, 0)`. -/
theorem concat4_rank2 {n : Nat} (p0 p1 p2 p3 : (⟨2, ![n, 1]⟩ : Shape).Idx → α)
    (h : Shape.Concatenates [⟨2, ![n, 1]⟩, ⟨2, ![n, 1]⟩, ⟨2, ![n, 1]⟩, ⟨2, ![n, 1]⟩] ⟨2, ![n, 4]⟩ 1)
    (j : Fin n) (k : Fin 4) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h (ix2 j k)
      = (![p0, p1, p2, p3] k) (ix2 j 0) := by
  refine concatenate_apply_piece (t := ⟨2, ![n, 4]⟩) (1 : Fin 2)
    [⟨⟨2, ![n, 1]⟩, p0⟩, ⟨⟨2, ![n, 1]⟩, p1⟩, ⟨⟨2, ![n, 1]⟩, p2⟩, ⟨⟨2, ![n, 1]⟩, p3⟩] h (ix2 j k) k.val k.isLt ⟨2, ![n, 1]⟩ (![p0, p1, p2, p3] k) ?_ rfl k.val ?_
    (ix2 j 0) ?_ ?_
  · match k with
    | ⟨0, _⟩ => rfl
    | ⟨1, _⟩ => rfl
    | ⟨2, _⟩ => rfl
    | ⟨3, _⟩ => rfl
  · match k with
    | ⟨0, _⟩ => rfl
    | ⟨1, _⟩ => rfl
    | ⟨2, _⟩ => rfl
    | ⟨3, _⟩ => rfl
  · intro b hb
    match b with
    | ⟨0, _⟩ => rfl
    | ⟨1, _⟩ => exact absurd rfl hb
  · show k.val + 0 = k.val
    rfl

/-- `concat4_rank2` at each of the four coordinates. -/
theorem concat4_rank2_0 {n : Nat} (p0 p1 p2 p3 : (⟨2, ![n, 1]⟩ : Shape).Idx → α)
    (h : Shape.Concatenates [⟨2, ![n, 1]⟩, ⟨2, ![n, 1]⟩, ⟨2, ![n, 1]⟩, ⟨2, ![n, 1]⟩] ⟨2, ![n, 4]⟩ 1) (j : Fin n) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h (ix2 j 0)
      = p0 (ix2 j 0) := concat4_rank2 p0 p1 p2 p3 h j 0
theorem concat4_rank2_1 {n : Nat} (p0 p1 p2 p3 : (⟨2, ![n, 1]⟩ : Shape).Idx → α)
    (h : Shape.Concatenates [⟨2, ![n, 1]⟩, ⟨2, ![n, 1]⟩, ⟨2, ![n, 1]⟩, ⟨2, ![n, 1]⟩] ⟨2, ![n, 4]⟩ 1) (j : Fin n) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h (ix2 j 1)
      = p1 (ix2 j 0) := concat4_rank2 p0 p1 p2 p3 h j 1
theorem concat4_rank2_2 {n : Nat} (p0 p1 p2 p3 : (⟨2, ![n, 1]⟩ : Shape).Idx → α)
    (h : Shape.Concatenates [⟨2, ![n, 1]⟩, ⟨2, ![n, 1]⟩, ⟨2, ![n, 1]⟩, ⟨2, ![n, 1]⟩] ⟨2, ![n, 4]⟩ 1) (j : Fin n) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h (ix2 j 2)
      = p2 (ix2 j 0) := concat4_rank2 p0 p1 p2 p3 h j 2
theorem concat4_rank2_3 {n : Nat} (p0 p1 p2 p3 : (⟨2, ![n, 1]⟩ : Shape).Idx → α)
    (h : Shape.Concatenates [⟨2, ![n, 1]⟩, ⟨2, ![n, 1]⟩, ⟨2, ![n, 1]⟩, ⟨2, ![n, 1]⟩] ⟨2, ![n, 4]⟩ 1) (j : Fin n) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h (ix2 j 3)
      = p3 (ix2 j 0) := concat4_rank2 p0 p1 p2 p3 h j 3

/-- Four pieces of unit extent joined along the last axis of a rank-three array: entry `(b, q, k)` is piece `k` at
    `(b, q, 0)`. -/
theorem concat4_rank3 {n0 n1 : Nat} (p0 p1 p2 p3 : (⟨3, ![n0, n1, 1]⟩ : Shape).Idx → α)
    (h : Shape.Concatenates [⟨3, ![n0, n1, 1]⟩, ⟨3, ![n0, n1, 1]⟩, ⟨3, ![n0, n1, 1]⟩, ⟨3, ![n0, n1, 1]⟩] ⟨3, ![n0, n1, 4]⟩ 2)
    (b : Fin n0) (q : Fin n1) (k : Fin 4) :
    concatenate ⟨3, ![n0, n1, 4]⟩ 2 [⟨⟨3, ![n0, n1, 1]⟩, p0⟩, ⟨⟨3, ![n0, n1, 1]⟩, p1⟩, ⟨⟨3, ![n0, n1, 1]⟩, p2⟩,
        ⟨⟨3, ![n0, n1, 1]⟩, p3⟩] h (ix3 b q k)
      = (![p0, p1, p2, p3] k) (ix3 b q 0) := by
  refine concatenate_apply_piece (t := ⟨3, ![n0, n1, 4]⟩) (2 : Fin 3)
    [⟨⟨3, ![n0, n1, 1]⟩, p0⟩, ⟨⟨3, ![n0, n1, 1]⟩, p1⟩, ⟨⟨3, ![n0, n1, 1]⟩, p2⟩, ⟨⟨3, ![n0, n1, 1]⟩, p3⟩] h (ix3 b q k) k.val k.isLt ⟨3, ![n0, n1, 1]⟩ (![p0, p1, p2, p3] k) ?_ rfl k.val ?_
    (ix3 b q 0) ?_ ?_
  · match k with
    | ⟨0, _⟩ => rfl
    | ⟨1, _⟩ => rfl
    | ⟨2, _⟩ => rfl
    | ⟨3, _⟩ => rfl
  · match k with
    | ⟨0, _⟩ => rfl
    | ⟨1, _⟩ => rfl
    | ⟨2, _⟩ => rfl
    | ⟨3, _⟩ => rfl
  · intro a ha
    match a with
    | ⟨0, _⟩ => rfl
    | ⟨1, _⟩ => rfl
    | ⟨2, _⟩ => exact absurd rfl ha
  · show k.val + 0 = k.val
    rfl

/-- `concat4_rank3` at each of the four coordinates. -/
theorem concat4_rank3_0 {n0 n1 : Nat} (p0 p1 p2 p3 : (⟨3, ![n0, n1, 1]⟩ : Shape).Idx → α)
    (h : Shape.Concatenates [⟨3, ![n0, n1, 1]⟩, ⟨3, ![n0, n1, 1]⟩, ⟨3, ![n0, n1, 1]⟩, ⟨3, ![n0, n1, 1]⟩] ⟨3, ![n0, n1, 4]⟩ 2)
    (b : Fin n0) (q : Fin n1) :
    concatenate ⟨3, ![n0, n1, 4]⟩ 2 [⟨⟨3, ![n0, n1, 1]⟩, p0⟩, ⟨⟨3, ![n0, n1, 1]⟩, p1⟩, ⟨⟨3, ![n0, n1, 1]⟩, p2⟩,
        ⟨⟨3, ![n0, n1, 1]⟩, p3⟩] h (ix3 b q 0) = p0 (ix3 b q 0) := concat4_rank3 p0 p1 p2 p3 h b q 0
theorem concat4_rank3_1 {n0 n1 : Nat} (p0 p1 p2 p3 : (⟨3, ![n0, n1, 1]⟩ : Shape).Idx → α)
    (h : Shape.Concatenates [⟨3, ![n0, n1, 1]⟩, ⟨3, ![n0, n1, 1]⟩, ⟨3, ![n0, n1, 1]⟩, ⟨3, ![n0, n1, 1]⟩] ⟨3, ![n0, n1, 4]⟩ 2)
    (b : Fin n0) (q : Fin n1) :
    concatenate ⟨3, ![n0, n1, 4]⟩ 2 [⟨⟨3, ![n0, n1, 1]⟩, p0⟩, ⟨⟨3, ![n0, n1, 1]⟩, p1⟩, ⟨⟨3, ![n0, n1, 1]⟩, p2⟩,
        ⟨⟨3, ![n0, n1, 1]⟩, p3⟩] h (ix3 b q 1) = p1 (ix3 b q 0) := concat4_rank3 p0 p1 p2 p3 h b q 1
theorem concat4_rank3_2 {n0 n1 : Nat} (p0 p1 p2 p3 : (⟨3, ![n0, n1, 1]⟩ : Shape).Idx → α)
    (h : Shape.Concatenates [⟨3, ![n0, n1, 1]⟩, ⟨3, ![n0, n1, 1]⟩, ⟨3, ![n0, n1, 1]⟩, ⟨3, ![n0, n1, 1]⟩] ⟨3, ![n0, n1, 4]⟩ 2)
    (b : Fin n0) (q : Fin n1) :
    concatenate ⟨3, ![n0, n1, 4]⟩ 2 [⟨⟨3, ![n0, n1, 1]⟩, p0⟩, ⟨⟨3, ![n0, n1, 1]⟩, p1⟩, ⟨⟨3, ![n0, n1, 1]⟩, p2⟩,
        ⟨⟨3, ![n0, n1, 1]⟩, p3⟩] h (ix3 b q 2) = p2 (ix3 b q 0) := concat4_rank3 p0 p1 p2 p3 h b q 2
theorem concat4_rank3_3 {n0 n1 : Nat} (p0 p1 p2 p3 : (⟨3, ![n0, n1, 1]⟩ : Shape).Idx → α)
    (h : Shape.Concatenates [⟨3, ![n0, n1, 1]⟩, ⟨3, ![n0, n1, 1]⟩, ⟨3, ![n0, n1, 1]⟩, ⟨3, ![n0, n1, 1]⟩] ⟨3, ![n0, n1, 4]⟩ 2)
    (b : Fin n0) (q : Fin n1) :
    concatenate ⟨3, ![n0, n1, 4]⟩ 2 [⟨⟨3, ![n0, n1, 1]⟩, p0⟩, ⟨⟨3, ![n0, n1, 1]⟩, p1⟩, ⟨⟨3, ![n0, n1, 1]⟩, p2⟩,
        ⟨⟨3, ![n0, n1, 1]⟩, p3⟩] h (ix3 b q 3) = p3 (ix3 b q 0) := concat4_rank3 p0 p1 p2 p3 h b q 3

/-- A coordinate of a box is one of the four. -/
theorem fin4_cases (k : Fin 4) : k = 0 ∨ k = 1 ∨ k = 2 ∨ k = 3 := by revert k; decide

/-- The slice of unit extent at offset `o` along the last axis of a rank-two array. -/
theorem slice_last2 {n m : Nat} (o : Nat) (x : (⟨2, ![n, m]⟩ : Shape).Idx → α)
    (h : (⟨2, ![n, m]⟩ : Shape).Slices ![0, o] ⟨2, ![n, 1]⟩) (j : Fin n) (k : Fin m) (hk : k.val = o) :
    extractStridedSlice ⟨2, ![n, 1]⟩ ![0, o] x h (ix2 j 0) = x (ix2 j k) :=
  slice2_axis1_apply o x h j 0 k (by rw [hk]; rfl)

/-- The slice of unit extent at offset `o` along the last axis of a rank-three array. -/
theorem slice_last3 {n0 n1 m : Nat} (o : Nat) (x : (⟨3, ![n0, n1, m]⟩ : Shape).Idx → α)
    (h : (⟨3, ![n0, n1, m]⟩ : Shape).Slices ![0, 0, o] ⟨3, ![n0, n1, 1]⟩) (b : Fin n0) (q : Fin n1) (k : Fin m) (hk : k.val = o) :
    extractStridedSlice ⟨3, ![n0, n1, 1]⟩ ![0, 0, o] x h (ix3 b q 0) = x (ix3 b q k) :=
  extractStridedSlice_apply _ _ _ _ _ (fun ax => by
    match ax with
    | ⟨0, _⟩ => exact (Nat.zero_add _).symm
    | ⟨1, _⟩ => exact (Nat.zero_add _).symm
    | ⟨2, _⟩ => exact hk.trans (Nat.add_zero _).symm)

/-- A `[n, 1]` array cast to `[n]` reads, at `j`, the operand at `(j, 0)`. -/
theorem cast_drop_last2 {n : Nat} (x : (⟨2, ![n, 1]⟩ : Shape).Idx → α) (h : (⟨2, ![n, 1]⟩ : Shape).ShapeCasts ⟨1, ![n]⟩)
    (j : Fin n) : shapeCast ⟨1, ![n]⟩ x h (ix1 j) = x (ix2 j 0) :=
  shapeCast_apply x h _ _ (by
    rw [Shape.rowMajor_val_two, Shape.rowMajor_val_one]
    show j.val * 1 + 0 = j.val
    omega)

/-- An `[n0, n1, 1]` array cast to `[n0, n1]` reads, at `(b, q)`, the operand at `(b, q, 0)`. -/
theorem cast_drop_last3 {n0 n1 : Nat} (x : (⟨3, ![n0, n1, 1]⟩ : Shape).Idx → α)
    (h : (⟨3, ![n0, n1, 1]⟩ : Shape).ShapeCasts ⟨2, ![n0, n1]⟩) (b : Fin n0) (q : Fin n1) :
    shapeCast ⟨2, ![n0, n1]⟩ x h (ix2 b q) = x (ix3 b q 0) :=
  shapeCast_apply x h _ _ (by
    rw [Shape.rowMajor_val_three, Shape.rowMajor_val_two]
    show (b.val * n1 + q.val) * 1 + 0 = b.val * n1 + q.val
    omega)

/-- An `[n]` array broadcast to `[n, 1]` reads, at `(j, 0)`, the operand at `j`. -/
theorem bcast_add_last2 {n : Nat} (x : (⟨1, ![n]⟩ : Shape).Idx → α)
    (h : (⟨1, ![n]⟩ : Shape).BroadcastsInDim ⟨2, ![n, 1]⟩ ![0]) (j : Fin n) (u : Fin 1) :
    broadcastInDim ⟨2, ![n, 1]⟩ ![0] h x (ix2 j u) = x (ix1 j) := by
  unfold broadcastInDim
  refine congrArg x (funext fun a => ?_)
  match a with
  | ⟨0, _⟩ =>
    split
    · next h1 => exact Fin.ext (by have := j.isLt; have h1' : n = 1 := h1; show 0 = j.val; omega)
    · rfl

/-- An `[n0, n1]` array broadcast to `[n0, n1, 1]` reads, at `(b, q, 0)`, the operand at `(b, q)`. -/
theorem bcast_add_last3 {n0 n1 : Nat} (x : (⟨2, ![n0, n1]⟩ : Shape).Idx → α)
    (h : (⟨2, ![n0, n1]⟩ : Shape).BroadcastsInDim ⟨3, ![n0, n1, 1]⟩ ![0, 1]) (b : Fin n0) (q : Fin n1) (u : Fin 1) :
    broadcastInDim ⟨3, ![n0, n1, 1]⟩ ![0, 1] h x (ix3 b q u) = x (ix2 b q) := by
  unfold broadcastInDim
  refine congrArg x (funext fun a => ?_)
  match a with
  | ⟨0, _⟩ =>
    split
    · next h1 => exact Fin.ext (by have := b.isLt; have h1' : n0 = 1 := h1; show 0 = b.val; omega)
    · rfl
  | ⟨1, _⟩ =>
    split
    · next h1 => exact Fin.ext (by have := q.isLt; have h1' : n1 = 1 := h1; show 0 = q.val; omega)
    · rfl

end Cert.Layout
-- ==== Proof.HostMath.lean ====
/-
  The host's centre-size arrays, read entry by entry at the ideal instance: entry (b, q, k) of the join is piece k at
  (b, q, 0); a piece is an elementwise combination of the argument's four coordinate arrays with a unit axis added; a
  coordinate array at (b, q) is the argument at (b, q, o). So each entry is the specification's box coordinate.
-/
import proofs.«145361_j28140625723714_2_alg».proof.Proof.HostDefs
import proofs.«145361_j28140625723714_2_alg».proof.Proof.HostLayout
import proofs.«145361_j28140625723714_2_alg».proof.Proof.Spec

set_option maxRecDepth 16384

noncomputable section

namespace Cert.KernelIdeal.Hand

open Cert.KernelIdeal Cert.KernelIdeal.Gen
open Idealize.ShloMosaic Idealize.ShloMosaic.ValueIdx

/-! ## Rank three -/

theorem col3_apply (x : S8x16384x4.Idx → EReal) (o : Nat) (h : S8x16384x4.Slices ![0, 0, o] S8x16384x1)
    (b : Fin 8) (q : Fin 16384) (k : Fin 4) (hk : k.val = o) :
    col3 (F := Ideal) x o h (ix2 b q) = x (ix3 b q k) := by
  unfold col3
  rw [Cert.Layout.cast_drop_last3, Cert.Layout.slice_last3 o x h b q k hk]

theorem half3_apply (b : Fin 8) (q : Fin 16384) : half3 (F := Ideal) (ix2 b q) = Cert.Spec.half := by
  unfold half3
  rw [broadcastInDim_scalar_apply, constant_apply]
  rfl

theorem lift3_apply (v : S8x16384.Idx → EReal) (b : Fin 8) (q : Fin 16384) :
    lift3 (F := Ideal) v (ix3 b q 0) = v (ix2 b q) := by
  unfold lift3
  exact Cert.Layout.bcast_add_last3 v _ b q 0

/-- The host's centre-size form of the corner boxes is the specification's. -/
theorem hostBoxes_eq (x : S8x16384x4.Idx → EReal) : hostBoxes (F := Ideal) x = Cert.Spec.boxes x := by
  funext i
  obtain ⟨b, q, k, rfl⟩ : ∃ (b : Fin 8) (q : Fin 16384) (k : Fin 4), i = ix3 b q k := ⟨i 0, i 1, i 2, eq_ix3 i⟩
  show hostBoxes (F := Ideal) x (ix3 b q k) = Cert.Spec.qbox x b q k
  unfold hostBoxes join3 Cert.Spec.qbox
  rcases Cert.Layout.fin4_cases k with rfl | rfl | rfl | rfl
  · rw [Cert.Layout.concat4_rank3_0, lift3_apply, mulf_apply, addf_apply, half3_apply, col3_apply x 0 _ b q 0 rfl,
      col3_apply x 2 _ b q 2 rfl]
    rfl
  · rw [Cert.Layout.concat4_rank3_1, lift3_apply, mulf_apply, addf_apply, half3_apply, col3_apply x 1 _ b q 1 rfl,
      col3_apply x 3 _ b q 3 rfl]
    rfl
  · rw [Cert.Layout.concat4_rank3_2, lift3_apply, subf_apply, col3_apply x 2 _ b q 2 rfl, col3_apply x 0 _ b q 0 rfl]
    rfl
  · rw [Cert.Layout.concat4_rank3_3, lift3_apply, subf_apply, col3_apply x 3 _ b q 3 rfl, col3_apply x 1 _ b q 1 rfl]
    rfl

/-! ## Rank two, and the transpose -/

theorem col2_apply (t : S512x4.Idx → EReal) (o : Nat) (h : S512x4.Slices ![0, o] S512x1)
    (j : Fin 512) (k : Fin 4) (hk : k.val = o) :
    col2 (F := Ideal) t o h (ix1 j) = t (ix2 j k) := by
  unfold col2
  rw [Cert.Layout.cast_drop_last2, Cert.Layout.slice_last2 o t h j k hk]

theorem half2_apply (j : Fin 512) : half2 (F := Ideal) (ix1 j) = Cert.Spec.half := by
  unfold half2
  rw [broadcastInDim_scalar_apply, constant_apply]
  rfl

theorem lift2_apply (v : S512.Idx → EReal) (j : Fin 512) : lift2 (F := Ideal) v (ix2 j 0) = v (ix1 j) := by
  unfold lift2
  exact Cert.Layout.bcast_add_last2 v _ j 0

/-- The host's centre-size form of the targets, entry by entry. -/
theorem hostTargets_apply (t : S512x4.Idx → EReal) (j : Fin 512) (k : Fin 4) :
    hostTargets (F := Ideal) t (ix2 j k) = Cert.Spec.tbox t j k := by
  unfold hostTargets join2 Cert.Spec.tbox
  rcases Cert.Layout.fin4_cases k with rfl | rfl | rfl | rfl
  · rw [Cert.Layout.concat4_rank2_0, lift2_apply, mulf_apply, addf_apply, half2_apply, col2_apply t 0 _ j 0 rfl,
      col2_apply t 2 _ j 2 rfl]
    rfl
  · rw [Cert.Layout.concat4_rank2_1, lift2_apply, mulf_apply, addf_apply, half2_apply, col2_apply t 1 _ j 1 rfl,
      col2_apply t 3 _ j 3 rfl]
    rfl
  · rw [Cert.Layout.concat4_rank2_2, lift2_apply, subf_apply, col2_apply t 2 _ j 2 rfl, col2_apply t 0 _ j 0 rfl]
    rfl
  · rw [Cert.Layout.concat4_rank2_3, lift2_apply, subf_apply, col2_apply t 3 _ j 3 rfl, col2_apply t 1 _ j 1 rfl]
    rfl

/-- The host's transposed centre-size form of the targets is the specification's. -/
theorem hostTargetsT_eq (t : S512x4.Idx → EReal) : hostTargetsT (F := Ideal) t = Cert.Spec.tboxesT t := by
  funext i
  obtain ⟨k, j, rfl⟩ : ∃ (k : Fin 4) (j : Fin 512), i = ix2 k j := ⟨i 0, i 1, eq_ix2 i⟩
  show hostTargetsT (F := Ideal) t (ix2 k j) = Cert.Spec.tbox t j k
  unfold hostTargetsT
  rw [transpose_ix2_apply, hostTargets_apply]

end Cert.KernelIdeal.Hand

end
-- ==== Proof.HostPrefix.lean ====
/-
  What the three arrays the launch stages hold when it is entered, at the ideal instance, as functions of the program's
  three argument arrays: the query boxes and the anchor boxes in centre-size form, and the target boxes in centre-size form,
  transposed. The host's operations are run in a module of their own and read entry by entry in another; here the two meet.
-/
import proofs.«145361_j28140625723714_2_alg».proof.Proof.EntryI
import proofs.«145361_j28140625723714_2_alg».proof.Proof.Spec
import proofs.«145361_j28140625723714_2_alg».proof.Proof.HostRun
import proofs.«145361_j28140625723714_2_alg».proof.Proof.HostMath

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- When the launch is entered, the first staged array holds the first argument's boxes in centre-size form. -/
theorem V_main_v20 (c : Dev nD) :
    (V (F := Ideal) m c main_v20 : S8x16384x4.Idx → EReal) = Cert.Spec.boxes (m ((c : Thread nD τ).loc main_arg0)) :=
  (V_v20_host m c).trans (hostBoxes_eq _)

/-- When the launch is entered, the second staged array holds the second argument's boxes in centre-size form. -/
theorem V_main_v41 (c : Dev nD) :
    (V (F := Ideal) m c main_v41 : S8x16384x4.Idx → EReal) = Cert.Spec.boxes (m ((c : Thread nD τ).loc main_arg1)) :=
  (V_v41_host m c).trans (hostBoxes_eq _)

/-- When the launch is entered, the third staged array holds the third argument's boxes in centre-size form, one row per
    coordinate. -/
theorem V_main_v63 (c : Dev nD) :
    (V (F := Ideal) m c main_v63 : S4x512.Idx → EReal) = Cert.Spec.tboxesT (m ((c : Thread nD τ).loc main_arg2)) :=
  (V_v63_host m c).trans (hostTargetsT_eq _)

end Cert.KernelIdeal.Hand

end
-- ==== Proof.RefConcat.lean ====
/-
  Four one-column arrays joined along the last axis, read at an index: entry (n, k) of the joined array is entry (n, 0)
  of the k-th column. Stated for any number of rows and any element type.
-/
import Idealize.ShloMosaic.Lib.Pipeline.Value
import Idealize.ShloMosaic.Lib.ValueIdx

namespace Cert.ReferenceIdeal.RefValue

open Idealize.ShloMosaic Idealize.ShloMosaic.ValueIdx

variable {α : Type}

/-- The k-th of four columns. -/
def pick4 {β : Type} (p0 p1 p2 p3 : β) : Fin 4 → β
  | ⟨0, _⟩ => p0
  | ⟨1, _⟩ => p1
  | ⟨2, _⟩ => p2
  | ⟨3, _⟩ => p3

/-- The off-axis coordinates of (n, 0) and (n, k) agree. -/
private theorem off_axis {N : Nat} (n : Fin N) (k : Fin 4) (hr : (⟨2, ![N, 1]⟩ : Shape).rank = (⟨2, ![N, 4]⟩ : Shape).rank) :
    ∀ b : Fin (⟨2, ![N, 1]⟩ : Shape).rank, b.cast hr ≠ (1 : Fin 2) →
      ((ix2 n (0 : Fin 1) : (⟨2, ![N, 1]⟩ : Shape).Idx) b).val = ((ix2 n k : (⟨2, ![N, 4]⟩ : Shape).Idx) (b.cast hr)).val := by
  intro b hb
  match b with
  | ⟨0, _⟩ => rfl
  | ⟨1, _⟩ => exact absurd rfl hb

/-- Entry (n, k) of four columns joined along the last axis is entry (n, 0) of column k. -/
theorem concat4_apply {N : Nat} (p0 p1 p2 p3 : (⟨2, ![N, 1]⟩ : Shape).Idx → α)
    (h : Shape.Concatenates (([⟨⟨2, ![N, 1]⟩, p0⟩, ⟨⟨2, ![N, 1]⟩, p1⟩, ⟨⟨2, ![N, 1]⟩, p2⟩, ⟨⟨2, ![N, 1]⟩, p3⟩] :
      List ((s : Shape) × (s.Idx → α))).map (·.1)) ⟨2, ![N, 4]⟩ 1)
    (n : Fin N) (k : Fin 4) :
    concatenate ⟨2, ![N, 4]⟩ 1 [⟨⟨2, ![N, 1]⟩, p0⟩, ⟨⟨2, ![N, 1]⟩, p1⟩, ⟨⟨2, ![N, 1]⟩, p2⟩, ⟨⟨2, ![N, 1]⟩, p3⟩] h (ix2 n k)
      = pick4 p0 p1 p2 p3 k (ix2 n 0) := by
  match k with
  | ⟨0, hk⟩ =>
    exact concatenate_apply_piece 1 _ h _ 0 (Nat.zero_lt_succ 3) _ p0 rfl rfl 0 rfl (ix2 n 0) (off_axis n ⟨0, hk⟩ rfl) rfl
  | ⟨1, hk⟩ =>
    exact concatenate_apply_piece 1 _ h _ 1 (Nat.succ_lt_succ (Nat.zero_lt_succ 2)) _ p1 rfl rfl 1 rfl (ix2 n 0) (off_axis n ⟨1, hk⟩ rfl) rfl
  | ⟨2, hk⟩ =>
    exact concatenate_apply_piece 1 _ h _ 2 (Nat.succ_lt_succ (Nat.succ_lt_succ (Nat.zero_lt_succ 1))) _ p2 rfl rfl 2 rfl (ix2 n 0) (off_axis n ⟨2, hk⟩ rfl) rfl
  | ⟨3, hk⟩ =>
    exact concatenate_apply_piece 1 _ h _ 3 (Nat.succ_lt_succ (Nat.succ_lt_succ (Nat.succ_lt_succ (Nat.zero_lt_succ 0)))) _ p3 rfl rfl 3 rfl (ix2 n 0) (off_axis n ⟨3, hk⟩ rfl) rfl

end Cert.ReferenceIdeal.RefValue
-- ==== Proof.RefTargets.lean ====
/-
  The targets in centre-size form as the reference program computes them. It slices the four corner columns out of the
  target array, forms the two half-sums and the two differences, and joins the four results along the last axis. Read
  entry by entry, row j of the joined array is the centre-size form of target j.
-/
import proofs.«145361_j28140625723714_2_alg».proof.Proof.Gen.ReferenceIdeal.Read
import proofs.«145361_j28140625723714_2_alg».proof.Proof.Spec
import proofs.«145361_j28140625723714_2_alg».proof.Proof.RefConcat

noncomputable section

namespace Cert.ReferenceIdeal.RefValue

open Cert.ReferenceIdeal Cert.ReferenceIdeal.Read Idealize.ShloMosaic Idealize.ShloMosaic.ValueIdx

/-! ### The four corner columns, each a vector over the targets -/

theorem tcol0 (x2 : (⟨S512x4, .f32⟩ : BufTy).Contents (Elt Ideal)) (j : Fin 512) :
    val_main_v3 (F := Ideal) x2 (ix1 j) = x2 (ix2 j 0) := by
  rw [val_main_v3_apply, val_main_v2_apply]
  exact congrArg x2 (funext fun a => Fin.ext (by
    match a with
    | ⟨0, _⟩ => show j.val / 1 = j.val; exact Nat.div_one _
    | ⟨1, _⟩ => rfl))

theorem tcol1 (x2 : (⟨S512x4, .f32⟩ : BufTy).Contents (Elt Ideal)) (j : Fin 512) :
    val_main_v5 (F := Ideal) x2 (ix1 j) = x2 (ix2 j 1) := by
  rw [val_main_v5_apply, val_main_v4_apply]
  exact congrArg x2 (funext fun a => Fin.ext (by
    match a with
    | ⟨0, _⟩ => show j.val / 1 = j.val; exact Nat.div_one _
    | ⟨1, _⟩ => rfl))

theorem tcol2 (x2 : (⟨S512x4, .f32⟩ : BufTy).Contents (Elt Ideal)) (j : Fin 512) :
    val_main_v7 (F := Ideal) x2 (ix1 j) = x2 (ix2 j 2) := by
  rw [val_main_v7_apply, val_main_v6_apply]
  exact congrArg x2 (funext fun a => Fin.ext (by
    match a with
    | ⟨0, _⟩ => show j.val / 1 = j.val; exact Nat.div_one _
    | ⟨1, _⟩ => rfl))

theorem tcol3 (x2 : (⟨S512x4, .f32⟩ : BufTy).Contents (Elt Ideal)) (j : Fin 512) :
    val_main_v9 (F := Ideal) x2 (ix1 j) = x2 (ix2 j 3) := by
  rw [val_main_v9_apply, val_main_v8_apply]
  exact congrArg x2 (funext fun a => Fin.ext (by
    match a with
    | ⟨0, _⟩ => show j.val / 1 = j.val; exact Nat.div_one _
    | ⟨1, _⟩ => rfl))

/-! ### The four centre-size coordinates, each a vector over the targets -/

/-- The centre's first coordinate: half the sum of the two first corners. -/
theorem tcx (x2 : (⟨S512x4, .f32⟩ : BufTy).Contents (Elt Ideal)) (j : Fin 512) :
    val_main_v12 (F := Ideal) x2 (ix1 j) = (x2 (ix2 j 0) + x2 (ix2 j 2)) * Cert.Spec.half := by
  rw [val_main_v12_apply, val_main_v10_apply, tcol0, tcol2, val_main_v11_apply, val_main_cst_apply]
  rfl

/-- The centre's second coordinate. -/
theorem tcy (x2 : (⟨S512x4, .f32⟩ : BufTy).Contents (Elt Ideal)) (j : Fin 512) :
    val_main_v15 (F := Ideal) x2 (ix1 j) = (x2 (ix2 j 1) + x2 (ix2 j 3)) * Cert.Spec.half := by
  rw [val_main_v15_apply, val_main_v13_apply, tcol1, tcol3, val_main_v14_apply, val_main_cst_0_apply]
  rfl

/-- The width. -/
theorem tw (x2 : (⟨S512x4, .f32⟩ : BufTy).Contents (Elt Ideal)) (j : Fin 512) :
    val_main_v16 (F := Ideal) x2 (ix1 j) = x2 (ix2 j 2) - x2 (ix2 j 0) := by
  rw [val_main_v16_apply, tcol2, tcol0]
  rfl

/-- The height. -/
theorem th (x2 : (⟨S512x4, .f32⟩ : BufTy).Contents (Elt Ideal)) (j : Fin 512) :
    val_main_v17 (F := Ideal) x2 (ix1 j) = x2 (ix2 j 3) - x2 (ix2 j 1) := by
  rw [val_main_v17_apply, tcol3, tcol1]
  rfl

/-- A vector over the targets, written as a one-column array, read at row j. -/
private theorem col_idx (j : Fin 512) : idx_main_v18 (ix2 j (0 : Fin 1)) = ix1 j :=
  funext fun a => by match a with | ⟨0, _⟩ => rfl

/-! ### The joined array -/

/-- Row j of the reference's array of targets in centre-size form is the centre-size form of target j. -/
theorem targets_at (x2 : (⟨S512x4, .f32⟩ : BufTy).Contents (Elt Ideal)) (j : Fin 512) (k : Fin 4) :
    val_main_v22 (F := Ideal) x2 (ix2 j k) = Cert.Spec.tbox x2 j k := by
  have hjoin : val_main_v22 (F := Ideal) x2 (ix2 j k)
      = pick4 (val_main_v18 (F := Ideal) x2) (val_main_v19 (F := Ideal) x2) (val_main_v20 (F := Ideal) x2)
          (val_main_v21 (F := Ideal) x2) k (ix2 j 0) := by
    unfold val_main_v22
    generalize val_main_v18 (F := Ideal) x2 = p0
    generalize val_main_v19 (F := Ideal) x2 = p1
    generalize val_main_v20 (F := Ideal) x2 = p2
    generalize val_main_v21 (F := Ideal) x2 = p3
    exact concat4_apply p0 p1 p2 p3 _ j k
  rw [hjoin]
  match k with
  | ⟨0, _⟩ =>
    show val_main_v18 (F := Ideal) x2 (ix2 j 0) = _
    rw [val_main_v18_apply, col_idx, tcx]; rfl
  | ⟨1, _⟩ =>
    show val_main_v19 (F := Ideal) x2 (ix2 j 0) = _
    rw [val_main_v19_apply, show idx_main_v19 (ix2 j (0 : Fin 1)) = ix1 j from col_idx j, tcy]; rfl
  | ⟨2, _⟩ =>
    show val_main_v20 (F := Ideal) x2 (ix2 j 0) = _
    rw [val_main_v20_apply, show idx_main_v20 (ix2 j (0 : Fin 1)) = ix1 j from col_idx j, tw]; rfl
  | ⟨3, _⟩ =>
    show val_main_v21 (F := Ideal) x2 (ix2 j 0) = _
    rw [val_main_v21_apply, show idx_main_v21 (ix2 j (0 : Fin 1)) = ix1 j from col_idx j, th]; rfl

end Cert.ReferenceIdeal.RefValue

end
-- ==== Proof.RefQueries.lean ====
/-
  The query boxes in centre-size form as the reference program computes them. It flattens the batches into one list of
  boxes (box q of batch b becomes row b * 16384 + q), slices the four corner columns, forms the two half-sums and the two
  differences, and joins the four results along the last axis. Read entry by entry, row b * 16384 + q of the joined
  array is the centre-size form of box q of batch b.
-/
import proofs.«145361_j28140625723714_2_alg».proof.Proof.Gen.ReferenceIdeal.Read
import proofs.«145361_j28140625723714_2_alg».proof.Proof.Spec
import proofs.«145361_j28140625723714_2_alg».proof.Proof.RefConcat

noncomputable section

namespace Cert.ReferenceIdeal.RefValue

open Cert.ReferenceIdeal Cert.ReferenceIdeal.Read Idealize.ShloMosaic Idealize.ShloMosaic.ValueIdx

/-- The row of box q of batch b in the flattened list of boxes. -/
def row (b : Fin 8) (q : Fin 16384) : Fin 131072 :=
  ⟨b.val * 16384 + q.val, by have hb := b.isLt; have hq := q.isLt; omega⟩

/-- Flattening the batches moves nothing within a box: corner c of row b * 16384 + q is corner c of box q of batch b. -/
theorem flat_at (x0 : (⟨S8x16384x4, .f32⟩ : BufTy).Contents (Elt Ideal)) (b : Fin 8) (q : Fin 16384) (c : Fin 4) :
    val_main_v0 (F := Ideal) x0 (ix2 (row b q) c) = x0 (ix3 b q c) := by
  rw [val_main_v0_apply]
  exact congrArg x0 (funext fun a => Fin.ext (by
    have hb := b.isLt; have hq := q.isLt; have hc := c.isLt
    match a with
    | ⟨0, _⟩ => show ((b.val * 16384 + q.val) * 4 + c.val) / 65536 = b.val; omega
    | ⟨1, _⟩ => show ((b.val * 16384 + q.val) * 4 + c.val) / 4 % 16384 = q.val; omega
    | ⟨2, _⟩ => show ((b.val * 16384 + q.val) * 4 + c.val) % 4 = c.val; omega))

/-! ### The four corner columns, each a vector over the rows -/

theorem qcol0 (x0 : (⟨S8x16384x4, .f32⟩ : BufTy).Contents (Elt Ideal)) (n : Fin 131072) :
    val_main_v24 (F := Ideal) x0 (ix1 n) = val_main_v0 (F := Ideal) x0 (ix2 n 0) := by
  rw [val_main_v24_apply, val_main_v23_apply]
  exact congrArg (val_main_v0 (F := Ideal) x0) (funext fun a => Fin.ext (by
    match a with
    | ⟨0, _⟩ => show n.val / 1 = n.val; exact Nat.div_one _
    | ⟨1, _⟩ => rfl))

theorem qcol1 (x0 : (⟨S8x16384x4, .f32⟩ : BufTy).Contents (Elt Ideal)) (n : Fin 131072) :
    val_main_v26 (F := Ideal) x0 (ix1 n) = val_main_v0 (F := Ideal) x0 (ix2 n 1) := by
  rw [val_main_v26_apply, val_main_v25_apply]
  exact congrArg (val_main_v0 (F := Ideal) x0) (funext fun a => Fin.ext (by
    match a with
    | ⟨0, _⟩ => show n.val / 1 = n.val; exact Nat.div_one _
    | ⟨1, _⟩ => rfl))

theorem qcol2 (x0 : (⟨S8x16384x4, .f32⟩ : BufTy).Contents (Elt Ideal)) (n : Fin 131072) :
    val_main_v28 (F := Ideal) x0 (ix1 n) = val_main_v0 (F := Ideal) x0 (ix2 n 2) := by
  rw [val_main_v28_apply, val_main_v27_apply]
  exact congrArg (val_main_v0 (F := Ideal) x0) (funext fun a => Fin.ext (by
    match a with
    | ⟨0, _⟩ => show n.val / 1 = n.val; exact Nat.div_one _
    | ⟨1, _⟩ => rfl))

theorem qcol3 (x0 : (⟨S8x16384x4, .f32⟩ : BufTy).Contents (Elt Ideal)) (n : Fin 131072) :
    val_main_v30 (F := Ideal) x0 (ix1 n) = val_main_v0 (F := Ideal) x0 (ix2 n 3) := by
  rw [val_main_v30_apply, val_main_v29_apply]
  exact congrArg (val_main_v0 (F := Ideal) x0) (funext fun a => Fin.ext (by
    match a with
    | ⟨0, _⟩ => show n.val / 1 = n.val; exact Nat.div_one _
    | ⟨1, _⟩ => rfl))

/-! ### The four centre-size coordinates, each a vector over the rows -/

/-- The centre's first coordinate: half the sum of the two first corners. -/
theorem qcx (x0 : (⟨S8x16384x4, .f32⟩ : BufTy).Contents (Elt Ideal)) (n : Fin 131072) :
    val_main_v33 (F := Ideal) x0 (ix1 n)
      = (val_main_v0 (F := Ideal) x0 (ix2 n 0) + val_main_v0 (F := Ideal) x0 (ix2 n 2)) * Cert.Spec.half := by
  rw [val_main_v33_apply, val_main_v31_apply, qcol0, qcol2, val_main_v32_apply, val_main_cst_1_apply]
  rfl

/-- The centre's second coordinate. -/
theorem qcy (x0 : (⟨S8x16384x4, .f32⟩ : BufTy).Contents (Elt Ideal)) (n : Fin 131072) :
    val_main_v36 (F := Ideal) x0 (ix1 n)
      = (val_main_v0 (F := Ideal) x0 (ix2 n 1) + val_main_v0 (F := Ideal) x0 (ix2 n 3)) * Cert.Spec.half := by
  rw [val_main_v36_apply, val_main_v34_apply, qcol1, qcol3, val_main_v35_apply, val_main_cst_2_apply]
  rfl

/-- The width. -/
theorem qw (x0 : (⟨S8x16384x4, .f32⟩ : BufTy).Contents (Elt Ideal)) (n : Fin 131072) :
    val_main_v37 (F := Ideal) x0 (ix1 n)
      = val_main_v0 (F := Ideal) x0 (ix2 n 2) - val_main_v0 (F := Ideal) x0 (ix2 n 0) := by
  rw [val_main_v37_apply, qcol2, qcol0]
  rfl

/-- The height. -/
theorem qh (x0 : (⟨S8x16384x4, .f32⟩ : BufTy).Contents (Elt Ideal)) (n : Fin 131072) :
    val_main_v38 (F := Ideal) x0 (ix1 n)
      = val_main_v0 (F := Ideal) x0 (ix2 n 3) - val_main_v0 (F := Ideal) x0 (ix2 n 1) := by
  rw [val_main_v38_apply, qcol3, qcol1]
  rfl

/-- A vector over the rows, written as a one-column array, read at row n. -/
private theorem col_idx (n : Fin 131072) : idx_main_v39 (ix2 n (0 : Fin 1)) = ix1 n :=
  funext fun a => by match a with | ⟨0, _⟩ => rfl

/-! ### The joined array -/

/-- Row b * 16384 + q of the reference's array of boxes in centre-size form is the centre-size form of box q of batch b. -/
theorem queries_at (x0 : (⟨S8x16384x4, .f32⟩ : BufTy).Contents (Elt Ideal)) (b : Fin 8) (q : Fin 16384) (k : Fin 4) :
    val_main_v43 (F := Ideal) x0 (ix2 (row b q) k) = Cert.Spec.qbox x0 b q k := by
  have hjoin : val_main_v43 (F := Ideal) x0 (ix2 (row b q) k)
      = pick4 (val_main_v39 (F := Ideal) x0) (val_main_v40 (F := Ideal) x0) (val_main_v41 (F := Ideal) x0)
          (val_main_v42 (F := Ideal) x0) k (ix2 (row b q) 0) := by
    unfold val_main_v43
    generalize val_main_v39 (F := Ideal) x0 = p0
    generalize val_main_v40 (F := Ideal) x0 = p1
    generalize val_main_v41 (F := Ideal) x0 = p2
    generalize val_main_v42 (F := Ideal) x0 = p3
    exact concat4_apply p0 p1 p2 p3 _ (row b q) k
  rw [hjoin]
  match k with
  | ⟨0, _⟩ =>
    show val_main_v39 (F := Ideal) x0 (ix2 (row b q) 0) = _
    rw [val_main_v39_apply, col_idx, qcx, flat_at, flat_at]; rfl
  | ⟨1, _⟩ =>
    show val_main_v40 (F := Ideal) x0 (ix2 (row b q) 0) = _
    rw [val_main_v40_apply, show idx_main_v40 (ix2 (row b q) (0 : Fin 1)) = ix1 (row b q) from col_idx _, qcy, flat_at,
      flat_at]; rfl
  | ⟨2, _⟩ =>
    show val_main_v41 (F := Ideal) x0 (ix2 (row b q) 0) = _
    rw [val_main_v41_apply, show idx_main_v41 (ix2 (row b q) (0 : Fin 1)) = ix1 (row b q) from col_idx _, qw, flat_at,
      flat_at]; rfl
  | ⟨3, _⟩ =>
    show val_main_v42 (F := Ideal) x0 (ix2 (row b q) 0) = _
    rw [val_main_v42_apply, show idx_main_v42 (ix2 (row b q) (0 : Fin 1)) = ix1 (row b q) from col_idx _, qh, flat_at,
      flat_at]; rfl

end Cert.ReferenceIdeal.RefValue

end
-- ==== Proof.RefIsSpec.lean ====
/-
  The reference program computes the specification. Entry (b, q, j) of its first result is zero plus the sum over the
  four coordinates k of the absolute difference between coordinate k of query box q of batch b and coordinate k of
  target j, both in centre-size form; a sum of four extended reals taken from zero is the left-to-right sum the
  specification is written as. Its second result is the same function applied to the anchors.
-/
import proofs.«145361_j28140625723714_2_alg».proof.Proof.Gen.ReferenceIdeal.Read
import proofs.«145361_j28140625723714_2_alg».proof.Proof.Spec
import proofs.«145361_j28140625723714_2_alg».proof.Proof.RefTargets
import proofs.«145361_j28140625723714_2_alg».proof.Proof.RefQueries
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- One term of the sum: the absolute difference of coordinate k of the two boxes. Both operands were broadcast over the
    axis they do not depend on, so the entry at (row, j, k) reads the queries at (row, k) and the targets at (j, k). -/
theorem term_at (x0 : (⟨S8x16384x4, .f32⟩ : BufTy).Contents (Elt Ideal)) (x2 : (⟨S512x4, .f32⟩ : BufTy).Contents (Elt Ideal))
    (b : Fin 8) (q : Fin 16384) (j : Fin 512) (k : Fin 4) :
    val_main_v49 (F := Ideal) x0 x2 (ix3 (row b q) j k)
      = Cert.Spec.absE (Cert.Spec.qbox x0 b q k - Cert.Spec.tbox x2 j k) := by
  have hq : idx_main_v44 (idx_main_v46 (ix3 (row b q) j k)) = ix2 (row b q) k :=
    funext fun a => by match a with | ⟨0, _⟩ => rfl | ⟨1, _⟩ => rfl
  have ht : idx_main_v45 (idx_main_v47 (ix3 (row b q) j k)) = ix2 j k :=
    funext fun a => by match a with | ⟨0, _⟩ => rfl | ⟨1, _⟩ => rfl
  rw [val_main_v49_apply, val_main_v48_apply, val_main_v46_apply, val_main_v44_apply, hq, val_main_v47_apply,
    val_main_v45_apply, ht, queries_at, targets_at]
  rfl

/-- The first result of the reference is the cost array of the query boxes against the targets. -/
theorem out0_eq (x0 : (⟨S8x16384x4, .f32⟩ : BufTy).Contents (Elt Ideal)) (x2 : (⟨S512x4, .f32⟩ : BufTy).Contents (Elt Ideal)) :
    Cert.ReferenceIdeal.Read.val_main_v79 (F := Ideal) x0 x2 = Cert.Spec.G x0 x2 := by
  funext i
  obtain ⟨b, q, j, rfl⟩ : ∃ (b : Fin 8) (q : Fin 16384) (j : Fin 512), i = ix3 b q j := ⟨i 0, i 1, i 2, eq_ix3 i⟩
  -- the final reshape: entry (b, q, j) is entry (b * 16384 + q, j) of the flat cost array
  have hrow : idx_main_v79 (ix3 b q j) = ix2 (row b q) j := funext fun a => Fin.ext (by
    have hb := b.isLt; have hq := q.isLt; have hj := j.isLt
    match a with
    | ⟨0, _⟩ => show ((b.val * 16384 + q.val) * 512 + j.val) / 512 = b.val * 16384 + q.val; omega
    | ⟨1, _⟩ => show ((b.val * 16384 + q.val) * 512 + j.val) % 512 = j.val; omega)
  -- the terms of the sum over the last axis
  have hterm : ∀ k : Fin 4, val_main_v49 (F := Ideal) x0 x2 (idx_main_v50 (ix2 (row b q) j) k)
      = Cert.Spec.absE (Cert.Spec.qbox x0 b q k - Cert.Spec.tbox x2 j k) := fun k => by
    have hk : idx_main_v50 (ix2 (row b q) j) k = ix3 (row b q) j k :=
      funext fun a => by match a with | ⟨0, _⟩ => rfl | ⟨1, _⟩ => rfl | ⟨2, _⟩ => rfl
    rw [hk]
    exact term_at x0 x2 b q j k
  rw [val_main_v79_apply, hrow, val_main_v50_apply, val_main_cst_3_apply, Ideal.ofBits_def, Ideal.ofBits_zero_f32,
    Finset.sum_congr rfl (fun k _ => hterm k), Cert.Spec.sum_four]
  rfl

/-- The reference treats the anchors exactly as it treats the query boxes: its second result is, operation for
    operation, the first result's function of the argument. -/
theorem second_same (x1 : (⟨S8x16384x4, .f32⟩ : BufTy).Contents (Elt Ideal)) (x2 : (⟨S512x4, .f32⟩ : BufTy).Contents (Elt Ideal)) :
    val_main_v80 (F := Ideal) x1 x2 = val_main_v79 (F := Ideal) x1 x2 := rfl

/-- The second result of the reference is the cost array of the anchors against the targets. -/
theorem out1_eq (x1 : (⟨S8x16384x4, .f32⟩ : BufTy).Contents (Elt Ideal)) (x2 : (⟨S512x4, .f32⟩ : BufTy).Contents (Elt Ideal)) :
    Cert.ReferenceIdeal.Read.val_main_v80 (F := Ideal) x1 x2 = Cert.Spec.G x1 x2 :=
  (second_same x1 x2).trans (out0_eq x1 x2)

end Cert.ReferenceIdeal.RefValue

end
-- ==== Proof.lean ====
/-
  The certificate's five claims.

  Both programs compute, for every batch b, query (or anchor) box q and target box j, the L1 distance between the two boxes in
  centre-size form (`Cert.Spec.G`). The kernel's program converts the three box arrays on the host, then a launch over an
  8 x 8 grid writes the 64 blocks of each cost array; the reference converts, spreads, subtracts, takes absolute values and
  sums the four coordinates from zero. The two sums differ only in grouping, and addition of extended reals is commutative
  and associative, so no hypothesis on the inputs is used. The idealized kernel is the printed kernel read at the exact reals
  with no rewrite applied, so there is nothing to preserve.
-/
import proofs.«145361_j28140625723714_2_alg».proof.Defs
import proofs.«145361_j28140625723714_2_alg».proof.Proof.Gen.Kernel
import proofs.«145361_j28140625723714_2_alg».proof.Proof.Gen.KernelIdeal
import proofs.«145361_j28140625723714_2_alg».proof.Proof.Gen.ReferenceIdeal
import proofs.«145361_j28140625723714_2_alg».proof.Proof.Gen.Pre_finite_inputs
import proofs.«145361_j28140625723714_2_alg».proof.Proof.Gen.ReferenceIdeal.Run
import proofs.«145361_j28140625723714_2_alg».proof.Proof.Gen.ReferenceIdeal.Read
import proofs.«145361_j28140625723714_2_alg».proof.Proof.FrameK
import proofs.«145361_j28140625723714_2_alg».proof.Proof.BlocksI
import proofs.«145361_j28140625723714_2_alg».proof.Proof.HostPrefix
import proofs.«145361_j28140625723714_2_alg».proof.Proof.RefIsSpec
import Idealize.ShloMosaic.Adequacy
import Idealize.ShloMosaic.Init

noncomputable section

namespace Cert.Proof

open Idealize.ShloMosaic Idealize.ShloMosaic.TcCoe Idealize.SL.Sem

/-- The cost array of boxes already in centre-size form against transposed centre-size targets is the specification's. -/
theorem costOf_boxes (x : Cert.Spec.SQ.Idx → EReal) (t : Cert.Spec.ST.Idx → EReal) :
    Cert.KernelIdeal.Hand.costOf (Cert.Spec.boxes x) (Cert.Spec.tboxesT t) = Cert.Spec.G x t := rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The idealized kernel's run, each cost array at the specification of the arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v64_0)
        = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v64_1)
        = Cert.Spec.G (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
    ⟨(h c).1.trans (by rw [Cert.KernelIdeal.Hand.V_main_v20, Cert.KernelIdeal.Hand.V_main_v63]; exact costOf_boxes _ _),
     (h c).2.1.trans (by rw [Cert.KernelIdeal.Hand.V_main_v41, Cert.KernelIdeal.Hand.V_main_v63]; exact costOf_boxes _ _),
     (h c).2.2⟩)
    (Cert.KernelIdeal.Hand.run_cost m ρ)

/-- The idealized reference's run, each result at the specification of its own arguments. -/
theorem reference_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v79)
        = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v80)
        = Cert.Spec.G (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun r h c =>
    ⟨(h c).1.trans ((Cert.ReferenceIdeal.Read.val_main_v79_eq m' c).trans (Cert.ReferenceIdeal.RefValue.out0_eq _ _)),
     (h c).2.1.trans ((Cert.ReferenceIdeal.Read.val_main_v80_eq m' c).trans (Cert.ReferenceIdeal.RefValue.out1_eq _ _)),
     (h c).2.2⟩)
    (Cert.ReferenceIdeal.Value.run (F := Ideal) m' ρ')

/-- From memories that agree on the arguments the two programs end with equal results: both are the specification of the
    same three arrays. -/
theorem algebraic : Cert.algebraic_KernelIdeal_ReferenceIdeal := fun m ρ m' ρ' _ hagree =>
  ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
   fun c => Cert.Spec.G (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
   kernel_run m ρ,
   (θ_run Cert.ReferenceIdeal.defs _ _).mono (fun r h c =>
     ⟨(h c).1.trans (congr (congrArg Cert.Spec.G (hagree c).1) (hagree c).2.2),
      (h c).2.1.trans (congr (congrArg Cert.Spec.G (hagree c).2.1) (hagree c).2.2),
      (h c).2.2⟩)
     (reference_run m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
